-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S128x128 : Shape := ⟨2, ![128, 128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  main_v53

def fn_part2 {F : FTy → Type} [FloatOps F] (main_arg7 : FVec F S128x128 .f32) (main_arg8 : FVec F S128x128 .f32) (main_arg9 : FVec F S128x128 .f32) (main_arg10 : FVec F S128x128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_v48 main_v49 main_v50

def fn_part1 {F : FTy → Type} [FloatOps F] (main_arg4 : FVec F S128x128 .f32) (main_arg5 : FVec F S128x128 .f32) (main_arg6 : FVec F S128x128 .f32) (main_arg7 : FVec F S128x128 .f32) (main_arg8 : FVec F S128x128 .f32) (main_arg9 : FVec F S128x128 .f32) (main_arg10 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S262144x128 .f32) (main_arg1 : FVec F S262144x128 .f32) (main_arg2 : FVec F S128x128 .f32) (main_arg3 : FVec F S128x128 .f32) (main_arg4 : FVec F S128x128 .f32) (main_arg5 : FVec F S128x128 .f32) (main_arg6 : FVec F S128x128 .f32) (main_arg7 : FVec F S128x128 .f32) (main_arg8 : FVec F S128x128 .f32) (main_arg9 : FVec F S128x128 .f32) (main_arg10 : FVec F S128x128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S262144x128 .f32 := Host.absf main_arg1
  let main_cst_0 : FVec F S_ .f32 := constant S_ .f32 0x7F800000#32
  let main_v5 : FVec F S262144x128 .f32 := broadcastInDim S262144x128 ![] bcast_S_S262144x128 main_cst_0
  let main_v6 : IVec S262144x128 1 := cmpf .olt main_v4 main_v5
  let main_c_1 : IVec S_ 1 := constantI S_ 1 1#1
  let main_v7 : IVec S_ 1 := (fun x v => Host.reduce IntOp.andi x v reducesTo_S262144x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_v13 main_v16
-- ==== Kernel.lean ====
abbrev S262144x128 : Shape := ⟨2, ![262144, 128]⟩
abbrev S128x128 : Shape := ⟨2, ![128, 128]⟩
abbrev S_ : Shape := ⟨0, ![]⟩
abbrev S128 : Shape := ⟨1, ![128]⟩
abbrev S1x128 : Shape := ⟨2, ![1, 128]⟩
abbrev S128x384 : Shape := ⟨2, ![128, 384]⟩
abbrev S4096x128 : Shape := ⟨2, ![4096, 128]⟩
abbrev S4096x384 : Shape := ⟨2, ![4096, 384]⟩

abbrev nBuf : Space → Nat
  | .hbm => 29
  | .vmem => 14
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S_, .f32⟩
  | .hbm, ⟨12, _⟩ => ⟨S128, .f32⟩
  | .hbm, ⟨13, _⟩ => ⟨S1x128, .f32⟩
  | .hbm, ⟨14, _⟩ => ⟨S_, .f32⟩
  | .hbm, ⟨15, _⟩ => ⟨S128, .f32⟩
  | .hbm, ⟨16, _⟩ => ⟨S1x128, .f32⟩
  | .hbm, ⟨17, _⟩ => ⟨S_, .f32⟩
  | .hbm, ⟨18, _⟩ => ⟨S128, .f32⟩
  | .hbm, ⟨19, _⟩ => ⟨S1x128, .f32⟩
  | .hbm, ⟨20, _⟩ => ⟨S128x128, .f32⟩
  | .hbm, ⟨21, _⟩ => ⟨S128x128, .f32⟩
  | .hbm, ⟨22, _⟩ => ⟨S128x384, .f32⟩
  | .hbm, ⟨23, _⟩ => ⟨S128x384, .bf16⟩
  | .hbm, ⟨24, _⟩ => ⟨S128x128, .bf16⟩
  | .hbm, ⟨25, _⟩ => ⟨S128x128, .f32⟩
  | .hbm, ⟨26, _⟩ => ⟨S128x128, .bf16⟩
  | .hbm, ⟨27, _⟩ => ⟨S262144x128, .f32⟩
  | .hbm, ⟨28, _⟩ => ⟨S262144x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S128x384, .bf16⟩
  | .local _ .vmem, ⟨5, _⟩ => ⟨S128x128, .bf16⟩
  | .local _ .vmem, ⟨6, _⟩ => ⟨S128x128, .bf16⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  reducesTo_S128x128_S128_d0 : S128x128.ReducesTo [0] S128
  h_S_ : 0 < S_.numel
  bcast_S128_S1x128_1 : S128.BroadcastsInDim S1x128 (![1] : Fin 1 → Fin S1x128.rank)
  transposes_S128x128_S128x128_1_0 : S128x128.Transposes [1, 0] S128x128
  concatenates_S128x128_S128x128_S128x128_S128x384_d1 : Shape.Concatenates [S128x128, S128x128, S128x128] S128x384 1
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  slices_S4096x384_o0_0_S4096x128 : S4096x384.Slices ![0, 0] S4096x128
  slices_S4096x384_o0_128_S4096x128 : S4096x384.Slices ![0, 128] S4096x128
  slices_S4096x384_o0_256_S4096x128 : S4096x384.Slices ![0, 256] S4096x128
  broadcasts_S1x128_S4096x128 : S1x128.Broadcasts S4096x128
  dot_S4096x128_S128x384_S4096x384_1_0_0_1_n_n_wf : DotDims.WF S4096x128 S128x384 S4096x384 [1] [0] [0] [1] [] []
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S262144x128.size a
  hwx0_1 : ∀ i : grid0.Coords, EltTy.bits .f32 = 32 ∨ (Rect.block (s := S262144x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x384.size a ≤ S128x384.size a
  hwx0_2 : ∀ i : grid0.Coords, EltTy.bits .bf16 = 32 ∨ (Rect.block (s := S128x384) S128x384.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x128.size a ≤ S262144x128.size a
  hwx0_8 : ∀ i : grid0.Coords, EltTy.bits .f32 = 32 ∨ (Rect.block (s := S262144x128) S4096x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4096x128.size a ≤ S262144x128.size a
  hwx0_9 : ∀ i : grid0.Coords, EltTy.bits .f32 = 32 ∨ (Rect.block (s := S262144x128) S4096x128.size (cc0_transform_9 i) (hinb0_9 i)).WholeWords (EltTy.packing .f32)

variable [Facts₀]

def dot_S4096x128_S128x384_S4096x384_1_0_0_1_n_n : DotDims S4096x128 S128x384 S4096x384 where
  lhsContracting := [1]
  rhsContracting := [0]
  lhsNonContracting := [0]
  rhsNonContracting := [1]
  lhsBatch := []
  rhsBatch := []
  wf := dot_S4096x128_S128x384_S4096x384_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S128x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13_0) S4096x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v13_1) S4096x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S262144x128 : Shape := ⟨2, ![262144, 128]⟩
abbrev S128x128 : Shape := ⟨2, ![128, 128]⟩
abbrev S_ : Shape := ⟨0, ![]⟩
abbrev S128 : Shape := ⟨1, ![128]⟩
abbrev S1x128 : Shape := ⟨2, ![1, 128]⟩

abbrev nBuf : Space → Nat
  | .hbm => 61
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S_, .f32⟩
  | .hbm, ⟨12, _⟩ => ⟨S128, .f32⟩
  | .hbm, ⟨13, _⟩ => ⟨S_, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S262144x128, .f32⟩
  | .hbm, ⟨18, _⟩ => ⟨S262144x128, .f32⟩
  | .hbm, ⟨19, _⟩ => ⟨S262144x128, .f32⟩
  | .hbm, ⟨20, _⟩ => ⟨S1x128, .f32⟩
  | .hbm, ⟨21, _⟩ => ⟨S262144x128, .f32⟩
  | .hbm, ⟨22, _⟩ => ⟨S262144x128, .f32⟩
  | .hbm, ⟨23, _⟩ => ⟨S262144x128, .f32⟩
  | .hbm, ⟨24, _⟩ => ⟨S262144x128, .f32⟩
  | .hbm, ⟨25, _⟩ => ⟨S_, .f32⟩
  | .hbm, ⟨26, _⟩ => ⟨S262144x128, .f32⟩
  | .hbm, ⟨27, _⟩ => ⟨S262144x128, .f32⟩
  | .hbm, ⟨28, _⟩ => ⟨S_, .f32⟩
  | .hbm, ⟨29, _⟩ => ⟨S262144x128, .f32⟩
  | .hbm, ⟨30, _⟩ => ⟨S262144x128, .f32⟩
  | .hbm, ⟨31, _⟩ => ⟨S262144x128, .f32⟩
  | .hbm, ⟨32, _⟩ => ⟨S262144x128, .f32⟩
  | .hbm, ⟨33, _⟩ => ⟨S262144x128, .f32⟩
  | .hbm, ⟨34, _⟩ => ⟨S1x128, .f32⟩
  | .hbm, ⟨35, _⟩ => ⟨S262144x128, .f32⟩
  | .hbm, ⟨36, _⟩ => ⟨S262144x128, .f32⟩
  | .hbm, ⟨37, _⟩ => ⟨S262144x128, .f32⟩
  | .hbm, ⟨38, _⟩ => ⟨S262144x128, .f32⟩
  | .hbm, ⟨39, _⟩ => ⟨S_, .f32⟩
  | .hbm, ⟨40, _⟩ => ⟨S262144x128, .f32⟩
  | .hbm, ⟨41, _⟩ => ⟨S262144x128, .f32⟩
  | .hbm, ⟨42, _⟩ => ⟨S_, .f32⟩
  | .hbm, ⟨43, _⟩ => ⟨S262144x128, .f32⟩
  | .hbm, ⟨44, _⟩ => ⟨S262144x128, .f32⟩
  | .hbm, ⟨45, _⟩ => ⟨S128x128, .f32⟩
  | .hbm, ⟨46, _⟩ => ⟨S262144x128, .f32⟩
  | .hbm, ⟨47, _⟩ => ⟨S262144x128, .f32⟩
  | .hbm, ⟨48, _⟩ => ⟨S128x128, .f32⟩
  | .hbm, ⟨49, _⟩ => ⟨S262144x128, .f32⟩
  | .hbm, ⟨50, _⟩ => ⟨S262144x128, .f32⟩
  | .hbm, ⟨51, _⟩ => ⟨S1x128, .f32⟩
  | .hbm, ⟨52, _⟩ => ⟨S262144x128, .f32⟩
  | .hbm, ⟨53, _⟩ => ⟨S262144x128, .f32⟩
  | .hbm, ⟨54, _⟩ => ⟨S262144x128, .f32⟩
  | .hbm, ⟨55, _⟩ => ⟨S_, .f32⟩
  | .hbm, ⟨56, _⟩ => ⟨S262144x128, .f32⟩
  | .hbm, ⟨57, _⟩ => ⟨S262144x128, .f32⟩
  | .hbm, ⟨58, _⟩ => ⟨S262144x128, .f32⟩
  | .hbm, ⟨59, _⟩ => ⟨S262144x128, .f32⟩
  | .hbm, ⟨60, _⟩ => ⟨S262144x128, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_cst_1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]

class Facts₀ : Prop where
  reducesTo_S128x128_S128_d0 : S128x128.ReducesTo [0] S128
  h_S_ : 0 < S_.numel
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  transposes_S128x128_S128x128_1_0 : S128x128.Transposes [1, 0] S128x128
  dot_S262144x128_S128x128_S262144x128_1_0_0_1_n_n_wf : DotDims.WF S262144x128 S128x128 S262144x128 [1] [0] [0] [1] [] []

variable [Facts₀]

def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf

class Facts : Prop extends Facts₀ where

variable [Facts]
-- ==== Proof.BitsFrame.lean ====
/-
  The frame of the word-level kernel program, at any float instance: the program's main function is sixteen host
  operations (three column sums with their keep-dims broadcasts, one matrix sum, two transposes, one concatenation
  along the columns and four format changes) followed by one pipelined region over 64 grid points. At grid point t the
  region stages rows 4096·t … 4096·t + 4095 of the two batch arrays and the whole of the six small arrays, runs the
  body once, and writes the two result blocks back to the same rows of the two result arrays.

  The body only loads its eight input blocks whole, computes, and stores its two output blocks whole, so what each
  output block holds after the body is one pure function of the eight input blocks (out_new, out_cand below). With
  that as the per-point data of the pipeline, the library's frame theorem gives: the program terminates without a
  fault; every array the region stages ends at what the library computes from the per-point data (an input array
  unchanged, a result array overwritten block by block); every other buffer ends as the host operations left it —
  and none of the eleven argument arrays is written by a host operation, so they end as launched.
-/
import proofs.«152118_j65420941853234_2_alg».proof.Proof.Gen.Kernel.Launch
import proofs.«152118_j65420941853234_2_alg».proof.Proof.Gen.Kernel.Skeleton
import proofs.«152118_j65420941853234_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The main function up to the region -/

/-- A core's buffers when the region is entered: the launch memory after the sixteen host operations. -/
abbrev V (c : Dev nD) (b : Ref sig .tc) : Buf (Elt F) ((c : Thread nD τ).loc b) :=
  StableHlo.after (List.flatten [hostOps0]) (fun b => m (c, b)) b

/-- No host operation allocates a buffer. -/
theorem hostOps0_fresh : (hostOps0 : List (HloOp τ sig (Elt F))).Forall fun op => op.fresh = ∅ := by
  simp only [List.Forall]; repeat' constructor

/-- The main function is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- The sixteen buffers the host operations write, one each. -/
abbrev written : List (Ref sig .tc) :=
  [main_cst, main_v0, main_v1, main_cst_0, main_v2, main_v3, main_cst_1, main_v4, main_v5, main_v6, main_v7, main_v8,
    main_v9, main_v10, main_v11, main_v12]

/-- A buffer that is none of those sixteen is found by the region as launched. -/
theorem V_kept (c : Dev nD) (b : Ref sig .tc) (hb : ∀ y ∈ written, b ≠ y) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.nary_writes, Finset.mem_singleton]
    repeat' apply And.intro
    all_goals exact StableHlo.devRef_ne_of_ne (hb _ (by decide))))

theorem V_main_arg0 (c : Dev nD) : V m c main_arg0 = m ((c : Thread nD τ).loc main_arg0) := V_kept m c _ (by decide)
theorem V_main_arg1 (c : Dev nD) : V m c main_arg1 = m ((c : Thread nD τ).loc main_arg1) := V_kept m c _ (by decide)
theorem V_main_arg2 (c : Dev nD) : V m c main_arg2 = m ((c : Thread nD τ).loc main_arg2) := V_kept m c _ (by decide)
theorem V_main_arg3 (c : Dev nD) : V m c main_arg3 = m ((c : Thread nD τ).loc main_arg3) := V_kept m c _ (by decide)
theorem V_main_arg4 (c : Dev nD) : V m c main_arg4 = m ((c : Thread nD τ).loc main_arg4) := V_kept m c _ (by decide)
theorem V_main_arg5 (c : Dev nD) : V m c main_arg5 = m ((c : Thread nD τ).loc main_arg5) := V_kept m c _ (by decide)
theorem V_main_arg6 (c : Dev nD) : V m c main_arg6 = m ((c : Thread nD τ).loc main_arg6) := V_kept m c _ (by decide)
theorem V_main_arg7 (c : Dev nD) : V m c main_arg7 = m ((c : Thread nD τ).loc main_arg7) := V_kept m c _ (by decide)
theorem V_main_arg8 (c : Dev nD) : V m c main_arg8 = m ((c : Thread nD τ).loc main_arg8) := V_kept m c _ (by decide)
theorem V_main_arg9 (c : Dev nD) : V m c main_arg9 = m ((c : Thread nD τ).loc main_arg9) := V_kept m c _ (by decide)
theorem V_main_arg10 (c : Dev nD) : V m c main_arg10 = m ((c : Thread nD τ).loc main_arg10) := V_kept m c _ (by decide)

/-! ## The windows' blocks -/

/-- Window w's block at grid point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every grid point, fetched there or not (an unfetched window's
    block index has not moved), for any per-point data over the region-entry arrays whose body leaves the block. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post, for any per-point data over the region-entry arrays: the two batch
    arrays are staged inputs, which the library leaves at their entry contents; the nine weight arrays are not
    staged, and keep their entry contents; all eleven entered the region as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's accesses: every load and store is of a whole buffer -/

abbrev rBatch : Rect S4096x128 := Rect.unit (s := S4096x128) ![0, 0] S4096x128.size inb_S4096x128_S4096x128_0_0
abbrev rWide : Rect S128x384 := Rect.unit (s := S128x384) ![0, 0] S128x384.size inb_S128x384_S128x384_0_0
abbrev rSquare : Rect S128x128 := Rect.unit (s := S128x128) ![0, 0] S128x128.size inb_S128x128_S128x128_0_0
abbrev rRow : Rect S1x128 := Rect.unit (s := S1x128) ![0, 0] S1x128.size inb_S1x128_S1x128_0_0

/-! ## What the body leaves in the two output blocks -/

/-- The candidate state of the block: the body's second store, from the blocks of x, h, the wide weight, the
    transposed candidate weight and the reset and candidate bias rows. -/
def candOf (x0 x1 : Vec F S4096x128 .f32) (x2 : Vec F S128x384 .bf16) (x4 : Vec F S128x128 .bf16) (x6 x7 : Vec F S1x128 .f32) :
    FVec F S4096x128 .f32 :=
  k0_pay5 (View.ld x0 rBatch) (View.ld x1 rBatch) (View.ld x2 rWide) (View.ld x4 rSquare) (View.ld x6 rRow) (View.ld x7 rRow)

/-- The new state's block after the body: its one store, of the whole block. -/
def out_new (x0 x1 : Vec F S4096x128 .f32) (x2 : Vec F S128x384 .bf16) (x3 x4 : Vec F S128x128 .bf16) (x5 x6 x7 : Vec F S1x128 .f32) :
    Vec F S4096x128 .f32 :=
  View.canon [⟨rBatch, k0_pay1 (View.ld x1 rBatch) (k0_pay2 (View.ld x5 rRow)) (k0_pay4 (View.ld x0 rBatch) (View.ld x2 rWide))
    (candOf x0 x1 x2 x4 x6 x7) (k0_pay6 (View.ld x1 rBatch) (View.ld x3 rSquare))⟩]

/-- The candidate state's block after the body: its one store, of the whole block. -/
def out_cand (x0 x1 : Vec F S4096x128 .f32) (x2 : Vec F S128x384 .bf16) (x4 : Vec F S128x128 .bf16) (x6 x7 : Vec F S1x128 .f32) :
    Vec F S4096x128 .f32 :=
  View.canon [⟨rBatch, candOf x0 x1 x2 x4 x6 x7⟩]

/-- One whole-block store covers the block. -/
theorem cover_batch (p0 : Vec F S4096x128 .f32) (y : S4096x128.Idx) :
    ∃ pc ∈ ([⟨rBatch, p0⟩] : List (View.Piece (Elt F) S4096x128 .f32)), y ∈ pc.1.set :=
  View.cover_of_tiled [⟨rBatch, p0⟩] S4096x128.size (by rfl) y

end Cert.Kernel.Fr

end
-- ==== Proof.BitsBody.lean ====
/-
  The body of the word-level kernel, run once on whole staging buffers: it loads the eight input blocks, computes, and
  stores the two output blocks. Whatever the output buffers held before, after the body the first holds the new state
  out_new and the second the candidate state out_cand of the eight input blocks, and the inputs are as they were.
-/
import proofs.«152118_j65420941853234_2_alg».proof.Proof.BitsFrame

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple: from the eight input buffers at contents x0 … x7 and the two output buffers at anything, to the
    inputs unchanged and the outputs at out_new and out_cand of the inputs. -/
theorem sound_kernel (c : Dev nD) (E : Set ℕ) (i : grid0.Coords)
    (a0 : Memref sig .tc .vmem S4096x128 .f32) (h0 : a0.IsWhole) (a1 : Memref sig .tc .vmem S4096x128 .f32) (h1 : a1.IsWhole)
    (a2 : Memref sig .tc .vmem S128x384 .bf16) (h2 : a2.IsWhole) (a3 : Memref sig .tc .vmem S128x128 .bf16) (h3 : a3.IsWhole)
    (a4 : Memref sig .tc .vmem S128x128 .bf16) (h4 : a4.IsWhole) (a5 : Memref sig .tc .vmem S1x128 .f32) (h5 : a5.IsWhole)
    (a6 : Memref sig .tc .vmem S1x128 .f32) (h6 : a6.IsWhole) (a7 : Memref sig .tc .vmem S1x128 .f32) (h7 : a7.IsWhole)
    (a8 : Memref sig .tc .vmem S4096x128 .f32) (h8 : a8.IsWhole) (a9 : Memref sig .tc .vmem S4096x128 .f32) (h9 : a9.IsWhole)
    (x0 x1 : Vec F S4096x128 .f32) (x2 : Vec F S128x384 .bf16) (x3 x4 : Vec F S128x128 .bf16) (x5 x6 x7 : Vec F S1x128 .f32)
    (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ owns (c : Thread nD τ) a6 fullShare x6 ∗ owns (c : Thread nD τ) a7 fullShare x7
        ∗ (∃ d, owns (c : Thread nD τ) a8 fullShare d) ∗ (∃ d, owns (c : Thread nD τ) a9 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare x6 ∗ owns (c : Thread nD τ) a7 fullShare x7
            ∗ owns (c : Thread nD τ) a8 fullShare (out_new x0 x1 x2 x3 x4 x5 x6 x7)
            ∗ owns (c : Thread nD τ) a9 fullShare (out_cand x0 x1 x2 x4 x6 x7)) -∗ K ⟨⟩))
      ⊢ wp frame (wpE (defs₀ (F := F)) Variants.none c none) E (cc0__gru_kernel i a0 h0 a1 h1 a2 h2 a3 h3 a4 h4 a5 h5 a6 h6 a7 h7 a8 h8 a9 h9) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover_batch _)
  iexists _; isplitr
  swap; · iexact H9
  ipureintro
  try dsimp only
  exact View.read_writes_eq_canon _ _ _ (cover_batch _)

end Cert.Kernel.Fr

end
-- ==== Proof.BitsRun.lean ====
/-
  The run of the word-level kernel program. The per-point data of the pipeline: at grid point t each input window's
  staging buffer holds that window's block of its array, and after the body the two output windows' buffers hold
  out_new and out_cand of the eight input blocks at t. The body's triple discharges the library's body obligation at
  every point, and the library's frame theorem then gives the run: termination without a fault, each staged array at
  what the library computes from the per-point data, every other buffer as the region found it.
-/
import proofs.«152118_j65420941853234_2_alg».proof.Proof.BitsBody

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The per-point data on core c: the arrays as the region finds them; after the body at point t each input buffer
    at its block and the two output buffers at out_new and out_cand of the input blocks; nothing else is used. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out_new (iblk m c 0 t) (iblk m c 1 t) (iblk m c 2 t) (iblk m c 3 t) (iblk m c 4 t) (iblk m c 5 t) (iblk m c 6 t) (iblk m c 7 t)
    | ⟨9, _⟩ => out_cand (iblk m c 0 t) (iblk m c 1 t) (iblk m c 2 t) (iblk m c 4 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t
    = out_new (iblk m c 0 t) (iblk m c 1 t) (iblk m c 2 t) (iblk m c 3 t) (iblk m c 4 t) (iblk m c 5 t) (iblk m c 6 t) (iblk m c 7 t) := by
  dsimp only [dats]
theorem after0_9 (c : Dev nD) (t : Fin cfg0.N) : (dats m 0 c).after 9 t
    = out_cand (iblk m c 0 t) (iblk m c 1 t) (iblk m c 2 t) (iblk m c 4 t) (iblk m c 6 t) (iblk m c 7 t) := by
  dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the main function terminates without a fault, with each staged array at what the
    library computes from the per-point data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and leaves its eleven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Fr

end
-- ==== Proof.IdealFrame.lean ====
/-
  The frame of the idealized kernel program, at any float instance: the program's main function is sixteen host
  operations (three column sums with their keep-dims broadcasts, one matrix sum, two transposes, one concatenation
  along the columns and four format changes) followed by one pipelined region over 64 grid points. At grid point t the
  region stages rows 4096·t … 4096·t + 4095 of the two batch arrays and the whole of the six small arrays, runs the
  body once, and writes the two result blocks back to the same rows of the two result arrays.

  The body only loads its eight input blocks whole, computes, and stores its two output blocks whole, so what each
  output block holds after the body is one pure function of the eight input blocks (out_new, out_cand below). With
  that as the per-point data of the pipeline, the library's frame theorem gives: the program terminates without a
  fault; every array the region stages ends at what the library computes from the per-point data (an input array
  unchanged, a result array overwritten block by block); every other buffer ends as the host operations left it —
  and none of the eleven argument arrays is written by a host operation, so they end as launched.
-/
import proofs.«152118_j65420941853234_2_alg».proof.Proof.Gen.KernelIdeal.Launch
import proofs.«152118_j65420941853234_2_alg».proof.Proof.Gen.KernelIdeal.Skeleton
import proofs.«152118_j65420941853234_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The main function up to the region -/

/-- A core's buffers when the region is entered: the launch memory after the sixteen host operations. -/
abbrev V (c : Dev nD) (b : Ref sig .tc) : Buf (Elt F) ((c : Thread nD τ).loc b) :=
  StableHlo.after (List.flatten [hostOps0]) (fun b => m (c, b)) b

/-- No host operation allocates a buffer. -/
theorem hostOps0_fresh : (hostOps0 : List (HloOp τ sig (Elt F))).Forall fun op => op.fresh = ∅ := by
  simp only [List.Forall]; repeat' constructor

/-- The main function is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- The sixteen buffers the host operations write, one each. -/
abbrev written : List (Ref sig .tc) :=
  [main_cst, main_v0, main_v1, main_cst_0, main_v2, main_v3, main_cst_1, main_v4, main_v5, main_v6, main_v7, main_v8,
    main_v9, main_v10, main_v11, main_v12]

/-- A buffer that is none of those sixteen is found by the region as launched. -/
theorem V_kept (c : Dev nD) (b : Ref sig .tc) (hb : ∀ y ∈ written, b ≠ y) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.nary_writes, Finset.mem_singleton]
    repeat' apply And.intro
    all_goals exact StableHlo.devRef_ne_of_ne (hb _ (by decide))))

theorem V_main_arg0 (c : Dev nD) : V m c main_arg0 = m ((c : Thread nD τ).loc main_arg0) := V_kept m c _ (by decide)
theorem V_main_arg1 (c : Dev nD) : V m c main_arg1 = m ((c : Thread nD τ).loc main_arg1) := V_kept m c _ (by decide)
theorem V_main_arg2 (c : Dev nD) : V m c main_arg2 = m ((c : Thread nD τ).loc main_arg2) := V_kept m c _ (by decide)
theorem V_main_arg3 (c : Dev nD) : V m c main_arg3 = m ((c : Thread nD τ).loc main_arg3) := V_kept m c _ (by decide)
theorem V_main_arg4 (c : Dev nD) : V m c main_arg4 = m ((c : Thread nD τ).loc main_arg4) := V_kept m c _ (by decide)
theorem V_main_arg5 (c : Dev nD) : V m c main_arg5 = m ((c : Thread nD τ).loc main_arg5) := V_kept m c _ (by decide)
theorem V_main_arg6 (c : Dev nD) : V m c main_arg6 = m ((c : Thread nD τ).loc main_arg6) := V_kept m c _ (by decide)
theorem V_main_arg7 (c : Dev nD) : V m c main_arg7 = m ((c : Thread nD τ).loc main_arg7) := V_kept m c _ (by decide)
theorem V_main_arg8 (c : Dev nD) : V m c main_arg8 = m ((c : Thread nD τ).loc main_arg8) := V_kept m c _ (by decide)
theorem V_main_arg9 (c : Dev nD) : V m c main_arg9 = m ((c : Thread nD τ).loc main_arg9) := V_kept m c _ (by decide)
theorem V_main_arg10 (c : Dev nD) : V m c main_arg10 = m ((c : Thread nD τ).loc main_arg10) := V_kept m c _ (by decide)

/-! ## The windows' blocks -/

/-- Window w's block at grid point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every grid point, fetched there or not (an unfetched window's
    block index has not moved), for any per-point data over the region-entry arrays whose body leaves the block. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post, for any per-point data over the region-entry arrays: the two batch
    arrays are staged inputs, which the library leaves at their entry contents; the nine weight arrays are not
    staged, and keep their entry contents; all eleven entered the region as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's accesses: every load and store is of a whole buffer -/

abbrev rBatch : Rect S4096x128 := Rect.unit (s := S4096x128) ![0, 0] S4096x128.size inb_S4096x128_S4096x128_0_0
abbrev rWide : Rect S128x384 := Rect.unit (s := S128x384) ![0, 0] S128x384.size inb_S128x384_S128x384_0_0
abbrev rSquare : Rect S128x128 := Rect.unit (s := S128x128) ![0, 0] S128x128.size inb_S128x128_S128x128_0_0
abbrev rRow : Rect S1x128 := Rect.unit (s := S1x128) ![0, 0] S1x128.size inb_S1x128_S1x128_0_0

/-! ## What the body leaves in the two output blocks -/

/-- The candidate state of the block: the body's second store, from the blocks of x, h, the wide weight, the
    transposed candidate weight and the reset and candidate bias rows. -/
def candOf (x0 x1 : Vec F S4096x128 .f32) (x2 : Vec F S128x384 .bf16) (x4 : Vec F S128x128 .bf16) (x6 x7 : Vec F S1x128 .f32) :
    FVec F S4096x128 .f32 :=
  k0_pay5 (View.ld x0 rBatch) (View.ld x1 rBatch) (View.ld x2 rWide) (View.ld x4 rSquare) (View.ld x6 rRow) (View.ld x7 rRow)

/-- The new state's block after the body: its one store, of the whole block. -/
def out_new (x0 x1 : Vec F S4096x128 .f32) (x2 : Vec F S128x384 .bf16) (x3 x4 : Vec F S128x128 .bf16) (x5 x6 x7 : Vec F S1x128 .f32) :
    Vec F S4096x128 .f32 :=
  View.canon [⟨rBatch, k0_pay1 (View.ld x1 rBatch) (k0_pay2 (View.ld x5 rRow)) (k0_pay4 (View.ld x0 rBatch) (View.ld x2 rWide))
    (candOf x0 x1 x2 x4 x6 x7) (k0_pay6 (View.ld x1 rBatch) (View.ld x3 rSquare))⟩]

/-- The candidate state's block after the body: its one store, of the whole block. -/
def out_cand (x0 x1 : Vec F S4096x128 .f32) (x2 : Vec F S128x384 .bf16) (x4 : Vec F S128x128 .bf16) (x6 x7 : Vec F S1x128 .f32) :
    Vec F S4096x128 .f32 :=
  View.canon [⟨rBatch, candOf x0 x1 x2 x4 x6 x7⟩]

/-- One whole-block store covers the block. -/
theorem cover_batch (p0 : Vec F S4096x128 .f32) (y : S4096x128.Idx) :
    ∃ pc ∈ ([⟨rBatch, p0⟩] : List (View.Piece (Elt F) S4096x128 .f32)), y ∈ pc.1.set :=
  View.cover_of_tiled [⟨rBatch, p0⟩] S4096x128.size (by rfl) y

end Cert.KernelIdeal.Fr

end
-- ==== Proof.IdealBody.lean ====
/-
  The body of the idealized kernel, run once on whole staging buffers: it loads the eight input blocks, computes, and
  stores the two output blocks. Whatever the output buffers held before, after the body the first holds the new state
  out_new and the second the candidate state out_cand of the eight input blocks, and the inputs are as they were.
-/
import proofs.«152118_j65420941853234_2_alg».proof.Proof.IdealFrame

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple: from the eight input buffers at contents x0 … x7 and the two output buffers at anything, to the
    inputs unchanged and the outputs at out_new and out_cand of the inputs. -/
theorem sound_kernel (c : Dev nD) (E : Set ℕ) (i : grid0.Coords)
    (a0 : Memref sig .tc .vmem S4096x128 .f32) (h0 : a0.IsWhole) (a1 : Memref sig .tc .vmem S4096x128 .f32) (h1 : a1.IsWhole)
    (a2 : Memref sig .tc .vmem S128x384 .bf16) (h2 : a2.IsWhole) (a3 : Memref sig .tc .vmem S128x128 .bf16) (h3 : a3.IsWhole)
    (a4 : Memref sig .tc .vmem S128x128 .bf16) (h4 : a4.IsWhole) (a5 : Memref sig .tc .vmem S1x128 .f32) (h5 : a5.IsWhole)
    (a6 : Memref sig .tc .vmem S1x128 .f32) (h6 : a6.IsWhole) (a7 : Memref sig .tc .vmem S1x128 .f32) (h7 : a7.IsWhole)
    (a8 : Memref sig .tc .vmem S4096x128 .f32) (h8 : a8.IsWhole) (a9 : Memref sig .tc .vmem S4096x128 .f32) (h9 : a9.IsWhole)
    (x0 x1 : Vec F S4096x128 .f32) (x2 : Vec F S128x384 .bf16) (x3 x4 : Vec F S128x128 .bf16) (x5 x6 x7 : Vec F S1x128 .f32)
    (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ owns (c : Thread nD τ) a6 fullShare x6 ∗ owns (c : Thread nD τ) a7 fullShare x7
        ∗ (∃ d, owns (c : Thread nD τ) a8 fullShare d) ∗ (∃ d, owns (c : Thread nD τ) a9 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare x6 ∗ owns (c : Thread nD τ) a7 fullShare x7
            ∗ owns (c : Thread nD τ) a8 fullShare (out_new x0 x1 x2 x3 x4 x5 x6 x7)
            ∗ owns (c : Thread nD τ) a9 fullShare (out_cand x0 x1 x2 x4 x6 x7)) -∗ K ⟨⟩))
      ⊢ wp frame (wpE (defs₀ (F := F)) Variants.none c none) E (cc0__gru_kernel i a0 h0 a1 h1 a2 h2 a3 h3 a4 h4 a5 h5 a6 h6 a7 h7 a8 h8 a9 h9) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover_batch _)
  iexists _; isplitr
  swap; · iexact H9
  ipureintro
  try dsimp only
  exact View.read_writes_eq_canon _ _ _ (cover_batch _)

end Cert.KernelIdeal.Fr

end
-- ==== Proof.IdealRun.lean ====
/-
  The run of the idealized kernel program. The per-point data of the pipeline: at grid point t each input window's
  staging buffer holds that window's block of its array, and after the body the two output windows' buffers hold
  out_new and out_cand of the eight input blocks at t. The body's triple discharges the library's body obligation at
  every point, and the library's frame theorem then gives the run: termination without a fault, each staged array at
  what the library computes from the per-point data, every other buffer as the region found it.
-/
import proofs.«152118_j65420941853234_2_alg».proof.Proof.IdealBody

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The per-point data on core c: the arrays as the region finds them; after the body at point t each input buffer
    at its block and the two output buffers at out_new and out_cand of the input blocks; nothing else is used. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out_new (iblk m c 0 t) (iblk m c 1 t) (iblk m c 2 t) (iblk m c 3 t) (iblk m c 4 t) (iblk m c 5 t) (iblk m c 6 t) (iblk m c 7 t)
    | ⟨9, _⟩ => out_cand (iblk m c 0 t) (iblk m c 1 t) (iblk m c 2 t) (iblk m c 4 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t
    = out_new (iblk m c 0 t) (iblk m c 1 t) (iblk m c 2 t) (iblk m c 3 t) (iblk m c 4 t) (iblk m c 5 t) (iblk m c 6 t) (iblk m c 7 t) := by
  dsimp only [dats]
theorem after0_9 (c : Dev nD) (t : Fin cfg0.N) : (dats m 0 c).after 9 t
    = out_cand (iblk m c 0 t) (iblk m c 1 t) (iblk m c 2 t) (iblk m c 4 t) (iblk m c 6 t) (iblk m c 7 t) := by
  dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the main function terminates without a fault, with each staged array at what the
    library computes from the per-point data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and leaves its eleven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Fr

end
-- ==== Proof.LibChebAlgebra.lean ====
/-
  UNTRUSTED. General algebra of a Chebyshev graph-convolution layer over the extended reals, independent of any
  particular program: (1) arrays all of whose entries are real numbers (`IsReal`) and the operations that preserve this;
  (2) node-axis propagation along weighted edges (`prop`) and the feature-axis matrix product (`mm`), both as sums;
  (3) the two commute (`prop_mm`); (4) the degree-2 Chebyshev layer written "product first, then propagate" equals
  the layer written "propagate first, then product" (`cheb_layer`).
  Extended-real arithmetic is not a ring (⊤ + ⊥, 0 * ⊤), so every identity here is proved by moving to ℝ, where the
  arrays live once they are known to be real.
-/
import Idealize.ShloMosaic.Lib.ValueIdx

noncomputable section

open scoped BigOperators

namespace ChebAlgebra

open Idealize.ShloMosaic Idealize.ShloMosaic.ValueIdx

/-! ## (1) Arrays of real numbers -/

/-- Every entry of the extended-real array `v` is a real number (equivalently: none is ⊤ or ⊥). -/
def IsReal {ι : Type*} (v : ι → EReal) : Prop := ∀ i, ∃ r : ℝ, v i = (r : EReal)

/-- The coercion ℝ → EReal commutes with finite sums. -/
theorem coe_finset_sum {κ : Type*} (s : Finset κ) (f : κ → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The coercion ℝ → EReal commutes with `if … then … else 0`. -/
theorem coe_ite_zero (p : Prop) [Decidable p] (a : ℝ) :
    (((if p then a else 0 : ℝ)) : EReal) = if p then (a : EReal) else 0 := by
  split_ifs <;> simp

/-- The coercion ℝ → EReal commutes with `max`. -/
theorem coe_max (x y : ℝ) : ((max x y : ℝ) : EReal) = max (x : EReal) (y : EReal) :=
  Monotone.map_max EReal.coe_strictMono.monotone

/-- A real array is the coercion of an array of reals. -/
theorem IsReal.lift {ι : Type*} {v : ι → EReal} (h : IsReal v) : ∃ v' : ι → ℝ, v = fun i => ((v' i : ℝ) : EReal) := by
  choose v' hv using h
  exact ⟨v', funext hv⟩

/-- The coercion of an array of reals is a real array. -/
theorem isReal_coe {ι : Type*} (v : ι → ℝ) : IsReal (fun i => ((v i : ℝ) : EReal)) := fun i => ⟨v i, rfl⟩

/-- A constant array with a real value is real. -/
theorem isReal_const {ι : Type*} (r : ℝ) : IsReal (fun _ : ι => (r : EReal)) := fun _ => ⟨r, rfl⟩

/-- A constant array whose value is known to be real is real. -/
theorem isReal_const' {ι : Type*} {c : EReal} (h : ∃ r : ℝ, c = (r : EReal)) : IsReal (fun _ : ι => c) := fun _ => h

/-- Re-indexing (by any map) keeps an array real. -/
theorem IsReal.comp {ι κ : Type*} {v : ι → EReal} (h : IsReal v) (g : κ → ι) : IsReal (fun i => v (g i)) :=
  fun i => h (g i)

/-- A pointwise sum of real arrays is real. -/
theorem IsReal.add {ι : Type*} {a b : ι → EReal} (ha : IsReal a) (hb : IsReal b) : IsReal (fun i => a i + b i) := fun i => by
  obtain ⟨x, hx⟩ := ha i; obtain ⟨y, hy⟩ := hb i
  exact ⟨x + y, by show a i + b i = _; rw [hx, hy, EReal.coe_add]⟩

/-- A pointwise difference of real arrays is real. -/
theorem IsReal.sub {ι : Type*} {a b : ι → EReal} (ha : IsReal a) (hb : IsReal b) : IsReal (fun i => a i - b i) := fun i => by
  obtain ⟨x, hx⟩ := ha i; obtain ⟨y, hy⟩ := hb i
  exact ⟨x - y, by show a i - b i = _; rw [hx, hy, EReal.coe_sub]⟩

/-- A pointwise product of real arrays is real. -/
theorem IsReal.mul {ι : Type*} {a b : ι → EReal} (ha : IsReal a) (hb : IsReal b) : IsReal (fun i => a i * b i) := fun i => by
  obtain ⟨x, hx⟩ := ha i; obtain ⟨y, hy⟩ := hb i
  exact ⟨x * y, by show a i * b i = _; rw [hx, hy, EReal.coe_mul]⟩

/-- The pointwise negation of a real array is real. -/
theorem IsReal.neg {ι : Type*} {a : ι → EReal} (ha : IsReal a) : IsReal (fun i => - a i) := fun i => by
  obtain ⟨x, hx⟩ := ha i
  exact ⟨-x, by show - a i = _; rw [hx, EReal.coe_neg]⟩

/-- A pointwise maximum of real arrays is real. -/
theorem IsReal.max {ι : Type*} {a b : ι → EReal} (ha : IsReal a) (hb : IsReal b) : IsReal (fun i => max (a i) (b i)) := fun i => by
  obtain ⟨x, hx⟩ := ha i; obtain ⟨y, hy⟩ := hb i
  exact ⟨Max.max x y, by show Max.max (a i) (b i) = _; rw [hx, hy, coe_max]⟩

/-- A finite sum of real entries is real; only the summands over `s` need be real. -/
theorem isReal_sum' {ι κ : Type*} (s : Finset κ) (f : ι → κ → EReal) (h : ∀ i, ∀ k ∈ s, ∃ r : ℝ, f i k = (r : EReal)) :
    IsReal (fun i => ∑ k ∈ s, f i k) := by
  classical
  intro i
  show ∃ r : ℝ, ∑ k ∈ s, f i k = (r : EReal)
  induction s using Finset.induction_on with
  | empty => exact ⟨0, by simp⟩
  | insert a s ha ih =>
    obtain ⟨x, hx⟩ := h i a (Finset.mem_insert_self a s)
    obtain ⟨y, hy⟩ := ih (fun i k hk => h i k (Finset.mem_insert_of_mem hk))
    exact ⟨x + y, by rw [Finset.sum_insert ha, hx, hy, EReal.coe_add]⟩

/-- A finite sum of real entries is real. -/
theorem isReal_sum {ι κ : Type*} (s : Finset κ) (f : ι → κ → EReal) (h : ∀ i k, ∃ r : ℝ, f i k = (r : EReal)) :
    IsReal (fun i => ∑ k ∈ s, f i k) :=
  isReal_sum' s f (fun i k _ => h i k)

/-- A finite sum of `if p then (a real entry) else 0` is real. -/
theorem isReal_sum_ite {ι κ : Type*} (s : Finset κ) (p : ι → κ → Prop) [∀ i k, Decidable (p i k)] (f : ι → κ → EReal)
    (h : ∀ i k, ∃ r : ℝ, f i k = (r : EReal)) : IsReal (fun i => ∑ k ∈ s, if p i k then f i k else 0) :=
  isReal_sum s _ (fun i k => by
    split_ifs
    · exact h i k
    · exact ⟨0, rfl⟩)

/-! ## (2) Propagation along edges and the matrix product, as sums -/

section Operators
variable {N C E A B : Nat}

/-- Node-axis propagation: entry `(n, c)` of the result adds `nu e * Y (g e, c)` over the edges `e` that land on node `n`.
    `row e` is the node edge `e` lands on (`none`: the edge is dropped), `g e` the node it reads from, `nu e` its weight. -/
def prop (row : Fin E → Option (Fin N)) (g : Fin E → Fin N) (nu : Fin E → EReal)
    (Y : (⟨2, ![N, C]⟩ : Shape).Idx → EReal) : (⟨2, ![N, C]⟩ : Shape).Idx → EReal :=
  fun i => ∑ e : Fin E, if row e = (some (i 0) : Option (Fin N)) then nu e * Y (ix2 (g e) (i 1)) else 0

/-- The matrix product on the feature axis. -/
def mm (X : (⟨2, ![N, A]⟩ : Shape).Idx → EReal) (W : (⟨2, ![A, B]⟩ : Shape).Idx → EReal) :
    (⟨2, ![N, B]⟩ : Shape).Idx → EReal :=
  fun i => ∑ k : Fin A, X (ix2 (i 0) k) * W (ix2 k (i 1))

/-- Propagation over ℝ. -/
def propR (row : Fin E → Option (Fin N)) (g : Fin E → Fin N) (nu : Fin E → ℝ)
    (Y : (⟨2, ![N, C]⟩ : Shape).Idx → ℝ) : (⟨2, ![N, C]⟩ : Shape).Idx → ℝ :=
  fun i => ∑ e : Fin E, if row e = (some (i 0) : Option (Fin N)) then nu e * Y (ix2 (g e) (i 1)) else 0

/-- The matrix product over ℝ. -/
def mmR (X : (⟨2, ![N, A]⟩ : Shape).Idx → ℝ) (W : (⟨2, ![A, B]⟩ : Shape).Idx → ℝ) :
    (⟨2, ![N, B]⟩ : Shape).Idx → ℝ :=
  fun i => ∑ k : Fin A, X (ix2 (i 0) k) * W (ix2 k (i 1))

/-- Propagation of coerced real data is the coercion of the real propagation. -/
theorem prop_coe (row : Fin E → Option (Fin N)) (g : Fin E → Fin N) (nu : Fin E → ℝ)
    (Y : (⟨2, ![N, C]⟩ : Shape).Idx → ℝ) :
    prop row g (fun e => ((nu e : ℝ) : EReal)) (fun j => ((Y j : ℝ) : EReal)) = fun i => ((propR row g nu Y i : ℝ) : EReal) := by
  funext i
  show (∑ e : Fin E, if row e = (some (i 0) : Option (Fin N)) then ((nu e : ℝ) : EReal) * ((Y (ix2 (g e) (i 1)) : ℝ) : EReal) else 0)
    = ((∑ e : Fin E, if row e = (some (i 0) : Option (Fin N)) then nu e * Y (ix2 (g e) (i 1)) else 0 : ℝ) : EReal)
  rw [coe_finset_sum]
  refine Finset.sum_congr rfl (fun e _ => ?_)
  rw [coe_ite_zero, EReal.coe_mul]

/-- The product of coerced real matrices is the coercion of the real product. -/
theorem mm_coe (X : (⟨2, ![N, A]⟩ : Shape).Idx → ℝ) (W : (⟨2, ![A, B]⟩ : Shape).Idx → ℝ) :
    mm (fun j => ((X j : ℝ) : EReal)) (fun j => ((W j : ℝ) : EReal)) = fun i => ((mmR X W i : ℝ) : EReal) := by
  funext i
  show (∑ k : Fin A, ((X (ix2 (i 0) k) : ℝ) : EReal) * ((W (ix2 k (i 1)) : ℝ) : EReal))
    = ((∑ k : Fin A, X (ix2 (i 0) k) * W (ix2 k (i 1)) : ℝ) : EReal)
  rw [coe_finset_sum]
  refine Finset.sum_congr rfl (fun k _ => ?_)
  rw [EReal.coe_mul]

/-- Propagating real data along real weights gives a real array. -/
theorem isReal_prop (row : Fin E → Option (Fin N)) (g : Fin E → Fin N) {nu : Fin E → EReal}
    {Y : (⟨2, ![N, C]⟩ : Shape).Idx → EReal} (hnu : IsReal nu) (hY : IsReal Y) : IsReal (prop row g nu Y) := by
  obtain ⟨nu', rfl⟩ := hnu.lift
  obtain ⟨Y', rfl⟩ := hY.lift
  rw [prop_coe]
  exact isReal_coe _

/-- The product of real matrices is real. -/
theorem isReal_mm {X : (⟨2, ![N, A]⟩ : Shape).Idx → EReal} {W : (⟨2, ![A, B]⟩ : Shape).Idx → EReal}
    (hX : IsReal X) (hW : IsReal W) : IsReal (mm X W) := by
  obtain ⟨X', rfl⟩ := hX.lift
  obtain ⟨W', rfl⟩ := hW.lift
  rw [mm_coe]
  exact isReal_coe _

/-! ## (3) Propagation commutes with the matrix product -/

/-- Over ℝ: propagating a product along the node axis is the product of the propagated left factor. -/
theorem propR_mmR (row : Fin E → Option (Fin N)) (g : Fin E → Fin N) (nu : Fin E → ℝ)
    (X : (⟨2, ![N, A]⟩ : Shape).Idx → ℝ) (W : (⟨2, ![A, B]⟩ : Shape).Idx → ℝ) :
    propR row g nu (mmR X W) = mmR (propR row g nu X) W := by
  funext i
  show (∑ e : Fin E, if row e = (some (i 0) : Option (Fin N)) then nu e * ∑ k : Fin A, X (ix2 (g e) k) * W (ix2 k (i 1)) else 0)
    = ∑ k : Fin A, (∑ e : Fin E, if row e = (some (i 0) : Option (Fin N)) then nu e * X (ix2 (g e) k) else 0) * W (ix2 k (i 1))
  simp only [Finset.sum_mul]
  rw [Finset.sum_comm]
  refine Finset.sum_congr rfl (fun e _ => ?_)
  by_cases h : row e = (some (i 0) : Option (Fin N))
  · simp only [if_pos h, Finset.mul_sum]
    exact Finset.sum_congr rfl (fun k _ => by ring)
  · simp only [if_neg h, zero_mul, Finset.sum_const_zero]

/-- THE LAW: for real weights and real matrices, propagation along the node axis commutes with a matrix product on
    the feature axis. -/
theorem prop_mm (row : Fin E → Option (Fin N)) (g : Fin E → Fin N) {nu : Fin E → EReal}
    {X : (⟨2, ![N, A]⟩ : Shape).Idx → EReal} {W : (⟨2, ![A, B]⟩ : Shape).Idx → EReal}
    (hnu : IsReal nu) (hX : IsReal X) (hW : IsReal W) :
    prop row g nu (mm X W) = mm (prop row g nu X) W := by
  obtain ⟨nu', rfl⟩ := hnu.lift
  obtain ⟨X', rfl⟩ := hX.lift
  obtain ⟨W', rfl⟩ := hW.lift
  rw [mm_coe, prop_coe, prop_coe, mm_coe, propR_mmR]

/-! ## (4) The degree-2 Chebyshev layer, two ways -/

/-- Over ℝ the matrix product is linear in its left factor: the combination `a * P - X`. -/
theorem mmR_lin (a : ℝ) (P X : (⟨2, ![N, A]⟩ : Shape).Idx → ℝ) (W : (⟨2, ![A, B]⟩ : Shape).Idx → ℝ)
    (i : (⟨2, ![N, B]⟩ : Shape).Idx) :
    mmR (fun j => a * P j - X j) W i = a * mmR P W i - mmR X W i := by
  show (∑ k : Fin A, (a * P (ix2 (i 0) k) - X (ix2 (i 0) k)) * W (ix2 k (i 1)))
    = a * (∑ k : Fin A, P (ix2 (i 0) k) * W (ix2 k (i 1))) - ∑ k : Fin A, X (ix2 (i 0) k) * W (ix2 k (i 1))
  rw [Finset.mul_sum, ← Finset.sum_sub_distrib]
  exact Finset.sum_congr rfl (fun k _ => by ring)

/-- THE LAYER IDENTITY. With `T0 = X`, `T1 = L X`, `T2 = 2 L (L X) - X` (`L` the propagation), the layer
    `T0 W0 + T1 W1 + T2 W2 + b` may be computed product-first: `X W0 + L (X W1) + 2 L (L (X W2)) - X W2 + b`.
    Left side: products first, then propagation; right side: propagation first, then products. All data real;
    `two` is the real number 2. -/
theorem cheb_layer (row : Fin E → Option (Fin N)) (g : Fin E → Fin N) {nu : Fin E → EReal}
    {X : (⟨2, ![N, A]⟩ : Shape).Idx → EReal} {W0 W1 W2 : (⟨2, ![A, B]⟩ : Shape).Idx → EReal}
    {bb : (⟨2, ![N, B]⟩ : Shape).Idx → EReal} {two : EReal}
    (hnu : IsReal nu) (hX : IsReal X) (hW0 : IsReal W0) (hW1 : IsReal W1) (hW2 : IsReal W2) (hbb : IsReal bb)
    (htwo : two = ((2 : ℝ) : EReal)) :
    (fun i => ((((mm X W0 i + prop row g nu (mm X W1) i) + two * prop row g nu (prop row g nu (mm X W2)) i)
        - mm X W2 i) + bb i))
      = fun i => (((mm X W0 i + mm (prop row g nu X) W1 i)
        + mm (fun j => two * prop row g nu (prop row g nu X) j - X j) W2 i) + bb i) := by
  obtain ⟨nu', rfl⟩ := hnu.lift
  obtain ⟨X', rfl⟩ := hX.lift
  obtain ⟨W0', rfl⟩ := hW0.lift
  obtain ⟨W1', rfl⟩ := hW1.lift
  obtain ⟨W2', rfl⟩ := hW2.lift
  obtain ⟨bb', rfl⟩ := hbb.lift
  subst htwo
  -- every operator on coerced real data is the coercion of the real operator
  simp only [mm_coe, prop_coe]
  -- the right side's third left factor is itself a coerced real array
  have h3 : (fun j => ((2 : ℝ) : EReal) * ((propR row g nu' (propR row g nu' X') j : ℝ) : EReal) - ((X' j : ℝ) : EReal))
      = fun j => ((2 * propR row g nu' (propR row g nu' X') j - X' j : ℝ) : EReal) := by
    funext j
    rw [EReal.coe_sub, EReal.coe_mul]
  rw [h3, mm_coe]
  funext i
  simp only [← EReal.coe_mul, ← EReal.coe_add, ← EReal.coe_sub]
  rw [EReal.coe_eq_coe_iff]
  -- in ℝ: commute propagation with the products, then linearity
  simp only [propR_mmR, mmR_lin]
  ring

end Operators

end ChebAlgebra

end
-- ==== Proof.LibHostForms.lean ====
/-
  UNTRUSTED. Host operations read as WHOLE-ARRAY equations at the ideal values, for arrays of any sizes: a plain matrix
  product `[N, A] × [A, B]` written as a `dot_general` is the sum over the inner coordinate; a slice `W[κ]` of a stack
  of matrices; a bias row broadcast over the rows of a matrix; a broadcast scalar constant; and the pointwise arithmetic.
-/
import Idealize.ShloMosaic.Lib.ValueIdx
import Idealize.ShloMosaic.Lib.Pipeline.Value
import Idealize.ShloMosaic.Lib.ValueLayout
import Idealize.ShloMosaic.PureOps.Ideal.Laws
import proofs.«152118_j65420941853234_2_alg».proof.Proof.LibChebAlgebra

noncomputable section

open scoped BigOperators

namespace HostForms

open Idealize.ShloMosaic Idealize.ShloMosaic.ValueIdx

variable {N A B : Nat}

/-! ## (L1) A plain `dot_general` is the matrix-product sum -/

/-- The dimension numbers of a plain product `[N, A] × [A, B] → [N, B]`: the left operand's axis 1 is contracted with the
    right operand's axis 0; no batch axes. -/
abbrev plainDotDims (N A B : Nat)
    (wf : DotDims.WF ⟨2, ![N, A]⟩ ⟨2, ![A, B]⟩ ⟨2, ![N, B]⟩ [1] [0] [0] [1] [] []) :
    DotDims ⟨2, ![N, A]⟩ ⟨2, ![A, B]⟩ ⟨2, ![N, B]⟩ where
  lhsContracting := [1]
  rhsContracting := [0]
  lhsNonContracting := [0]
  rhsNonContracting := [1]
  lhsBatch := []
  rhsBatch := []
  wf := wf

section DotLiteral
variable (wf : DotDims.WF ⟨2, ![N, A]⟩ ⟨2, ![A, B]⟩ ⟨2, ![N, B]⟩ [1] [0] [0] [1] [] [])

/-- The left operand's row coordinate is the output's row. -/
theorem lhs_row (i : (⟨2, ![N, B]⟩ : Shape).Idx) (q : (plainDotDims N A B wf).contr.Idx) :
    ((plainDotDims N A B wf).lhsIdx i q 0).val = (i 0).val := by
  unfold DotDims.lhsIdx
  rw [dif_neg (show (0 : Fin 2) ∉ (plainDotDims N A B wf).lhsBatch from List.not_mem_nil),
    dif_pos (show (0 : Fin 2) ∈ (plainDotDims N A B wf).lhsNonContracting from List.mem_singleton.mpr rfl)]
  rfl

/-- The right operand's column coordinate is the output's column. -/
theorem rhs_col (i : (⟨2, ![N, B]⟩ : Shape).Idx) (q : (plainDotDims N A B wf).contr.Idx) :
    ((plainDotDims N A B wf).rhsIdx i q 1).val = (i 1).val := by
  unfold DotDims.rhsIdx
  rw [dif_neg (show (1 : Fin 2) ∉ (plainDotDims N A B wf).rhsBatch from List.not_mem_nil),
    dif_pos (show (1 : Fin 2) ∈ (plainDotDims N A B wf).rhsNonContracting from List.mem_singleton.mpr rfl)]
  rfl

/-- THE PRODUCT AT ROW `r`, COLUMN `f`, for the literal dimension numbers: the sum over the inner coordinate. -/
theorem dotGeneral_plainDims_apply {φ₁ φ₂ : FTy} (prec : Option ContractPrecision) (X : FVec Ideal ⟨2, ![N, A]⟩ φ₁)
    (W : FVec Ideal ⟨2, ![A, B]⟩ φ₂) (r : Fin N) (f : Fin B) :
    Host.dotGeneral (F := Ideal) (plainDotDims N A B wf) prec X W (ix2 r f) = ∑ k : Fin A, X (ix2 r k) * W (ix2 k f) := by
  show FloatOps.dotGeneral (plainDotDims N A B wf) prec .single X W (ix2 r f) = _
  rw [Ideal.dotGeneral_apply, ← Equiv.sum_comp (contrEquiv1 (plainDotDims N A B wf) A rfl rfl).symm]
  refine Finset.sum_congr rfl fun k _ => ?_
  have hk := contrEquiv1_symm_val (plainDotDims N A B wf) A rfl rfl k
  have el : (plainDotDims N A B wf).lhsIdx (ix2 r f) ((contrEquiv1 (plainDotDims N A B wf) A rfl rfl).symm k) = ix2 r k :=
    funext fun a => Fin.ext (by
      match a with
      | ⟨0, _⟩ => exact lhs_row wf _ _
      | ⟨1, _⟩ => exact (DotDims.lhsIdx_val_of_single (plainDotDims N A B wf) rfl _ _).trans hk)
  have er : (plainDotDims N A B wf).rhsIdx (ix2 r f) ((contrEquiv1 (plainDotDims N A B wf) A rfl rfl).symm k) = ix2 k f :=
    funext fun a => Fin.ext (by
      match a with
      | ⟨0, _⟩ => exact (DotDims.rhsIdx_val_of_single (plainDotDims N A B wf) rfl _ _).trans hk
      | ⟨1, _⟩ => exact rhs_col wf _ _)
  rw [el, er]

/-- The whole product, for the literal dimension numbers. -/
theorem dotGeneral_plainDims {φ₁ φ₂ : FTy} (prec : Option ContractPrecision) (X : FVec Ideal ⟨2, ![N, A]⟩ φ₁)
    (W : FVec Ideal ⟨2, ![A, B]⟩ φ₂) :
    Host.dotGeneral (F := Ideal) (plainDotDims N A B wf) prec X W
      = fun i => ∑ k : Fin A, X (ix2 (i 0) k) * W (ix2 k (i 1)) := by
  funext i
  obtain ⟨r, f, rfl⟩ : ∃ (r : Fin N) (f : Fin B), i = ix2 r f := ⟨i 0, i 1, eq_ix2 i⟩
  exact dotGeneral_plainDims_apply wf prec X W r f

end DotLiteral

/-- THE WHOLE PRODUCT, for ANY dimension numbers with the plain product's fields (a record given by its fields: the six
    hypotheses then hold by `rfl`): entry `(r, f)` is the sum over the inner coordinate `k` of `X (r, k) * W (k, f)`. -/
theorem dotGeneral_mm {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂) :
    Host.dotGeneral (F := Ideal) d prec X W = fun i => ∑ k : Fin A, X (ix2 (i 0) k) * W (ix2 k (i 1)) := by
  obtain ⟨lc, rc, ln, rn, lb, rb, wf⟩ := d
  simp only at h1 h2 h3 h4 h5 h6
  subst h1 h2 h3 h4 h5 h6
  exact dotGeneral_plainDims wf prec X W

/-- The same at row `r`, column `f`. -/
theorem dotGeneral_mm_apply {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂)
    (r : Fin N) (f : Fin B) :
    Host.dotGeneral (F := Ideal) d prec X W (ix2 r f) = ∑ k : Fin A, X (ix2 r k) * W (ix2 k f) :=
  congrFun (dotGeneral_mm d h1 h2 h3 h4 h5 h6 prec X W) (ix2 r f)

/-- The whole product as the matrix-product operator `ChebAlgebra.mm`. -/
theorem dotGeneral_eq_mm {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂) :
    Host.dotGeneral (F := Ideal) d prec X W = ChebAlgebra.mm X W :=
  dotGeneral_mm d h1 h2 h3 h4 h5 h6 prec X W

/-! ## (L2) One matrix of a stack: `W[κ]` -/

section Stack
variable {α : Type} {K : Nat}

/-- Slice `κ` of a stack `[K, A, B]` of matrices, cut out as `[1, A, B]` and viewed as `[A, B]`, is the matrix
    `(a, b) ↦ W (κ, a, b)`. -/
theorem slice_stack (κ : Fin K) (W : (⟨3, ![K, A, B]⟩ : Shape).Idx → α)
    (hs : (⟨3, ![K, A, B]⟩ : Shape).Slices ![κ.val, 0, 0] ⟨3, ![1, A, B]⟩)
    (hc : (⟨3, ![1, A, B]⟩ : Shape).ShapeCasts ⟨2, ![A, B]⟩) :
    shapeCast ⟨2, ![A, B]⟩ (extractStridedSlice ⟨3, ![1, A, B]⟩ ![κ.val, 0, 0] W hs) hc
      = fun j => W (ix3 κ (j 0) (j 1)) := by
  funext j
  obtain ⟨a, b, rfl⟩ : ∃ (a : Fin A) (b : Fin B), j = ix2 a b := ⟨j 0, j 1, eq_ix2 j⟩
  rw [shapeCast_1ab_ab_apply]
  refine extractStridedSlice_apply _ W hs _ (ix3 κ a b) (fun c => ?_)
  match c with
  | ⟨0, _⟩ => show κ.val = κ.val + 0; rfl
  | ⟨1, _⟩ => show a.val = 0 + a.val; exact (Nat.zero_add _).symm
  | ⟨2, _⟩ => show b.val = 0 + b.val; exact (Nat.zero_add _).symm

/-- The first matrix of a stack of three. -/
theorem slice_stack3_0 (W : (⟨3, ![3, A, B]⟩ : Shape).Idx → α)
    (hs : (⟨3, ![3, A, B]⟩ : Shape).Slices ![0, 0, 0] ⟨3, ![1, A, B]⟩)
    (hc : (⟨3, ![1, A, B]⟩ : Shape).ShapeCasts ⟨2, ![A, B]⟩) :
    shapeCast ⟨2, ![A, B]⟩ (extractStridedSlice ⟨3, ![1, A, B]⟩ ![0, 0, 0] W hs) hc
      = fun j => W (ix3 (0 : Fin 3) (j 0) (j 1)) :=
  slice_stack (0 : Fin 3) W hs hc

/-- The second matrix of a stack of three. -/
theorem slice_stack3_1 (W : (⟨3, ![3, A, B]⟩ : Shape).Idx → α)
    (hs : (⟨3, ![3, A, B]⟩ : Shape).Slices ![1, 0, 0] ⟨3, ![1, A, B]⟩)
    (hc : (⟨3, ![1, A, B]⟩ : Shape).ShapeCasts ⟨2, ![A, B]⟩) :
    shapeCast ⟨2, ![A, B]⟩ (extractStridedSlice ⟨3, ![1, A, B]⟩ ![1, 0, 0] W hs) hc
      = fun j => W (ix3 (1 : Fin 3) (j 0) (j 1)) :=
  slice_stack (1 : Fin 3) W hs hc

/-- The third matrix of a stack of three. -/
theorem slice_stack3_2 (W : (⟨3, ![3, A, B]⟩ : Shape).Idx → α)
    (hs : (⟨3, ![3, A, B]⟩ : Shape).Slices ![2, 0, 0] ⟨3, ![1, A, B]⟩)
    (hc : (⟨3, ![1, A, B]⟩ : Shape).ShapeCasts ⟨2, ![A, B]⟩) :
    shapeCast ⟨2, ![A, B]⟩ (extractStridedSlice ⟨3, ![1, A, B]⟩ ![2, 0, 0] W hs) hc
      = fun j => W (ix3 (2 : Fin 3) (j 0) (j 1)) :=
  slice_stack (2 : Fin 3) W hs hc

end Stack

/-! ## (L3) A bias row broadcast over the rows of a matrix -/

section Bias
variable {α : Type}

/-- A vector `[B]` made a row `[1, B]` by a broadcast, read at `(0, f)`. -/
theorem bcast_row_apply (b : (⟨1, ![B]⟩ : Shape).Idx → α)
    (h1 : (⟨1, ![B]⟩ : Shape).BroadcastsInDim ⟨2, ![1, B]⟩ ![1]) (u : Fin 1) (f : Fin B) :
    broadcastInDim ⟨2, ![1, B]⟩ ![1] h1 b (ix2 u f) = b (ix1 f) := by
  refine broadcastInDim_apply _ h1 b _ (ix1 f) (fun c => ?_)
  match c with
  | ⟨0, _⟩ =>
    show f.val = if B = 1 then 0 else f.val
    split_ifs with hB
    · have := f.isLt; omega
    · rfl

/-- A row `[1, B]` repeated down the `N` rows of a matrix, read at `(n, f)`. -/
theorem bcast_rows_apply (v : (⟨2, ![1, B]⟩ : Shape).Idx → α)
    (h2 : (⟨2, ![1, B]⟩ : Shape).BroadcastsInDim ⟨2, ![N, B]⟩ ![0, 1]) (n : Fin N) (f : Fin B) :
    broadcastInDim ⟨2, ![N, B]⟩ ![0, 1] h2 v (ix2 n f) = v (ix2 (0 : Fin 1) f) := by
  refine broadcastInDim_apply _ h2 v _ (ix2 (0 : Fin 1) f) (fun c => ?_)
  match c with
  | ⟨0, _⟩ =>
    show (0 : ℕ) = if (1 : ℕ) = 1 then 0 else n.val
    rw [if_pos rfl]
  | ⟨1, _⟩ =>
    show f.val = if B = 1 then 0 else f.val
    split_ifs with hB
    · have := f.isLt; omega
    · rfl

/-- (a) THE BIAS, two broadcasts: a vector `[B]` made a row and repeated down the rows is `(n, f) ↦ b f`. -/
theorem bias_bcast_bcast (b : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![N, B]⟩ ![0, 1]) :
    broadcastInDim ⟨2, ![N, B]⟩ ![0, 1] h2 (broadcastInDim ⟨2, ![1, B]⟩ ![1] h1 b) = fun i => b (ix1 (i 1)) := by
  funext i
  obtain ⟨n, f, rfl⟩ : ∃ (n : Fin N) (f : Fin B), i = ix2 n f := ⟨i 0, i 1, eq_ix2 i⟩
  rw [bcast_rows_apply, bcast_row_apply]
  rfl

/-- (b) THE BIAS, a shape cast then a broadcast: a vector `[B]` viewed as a row and repeated down the rows is
    `(n, f) ↦ b f`. -/
theorem bias_cast_bcast (b : (⟨1, ![B]⟩ : Shape).Idx → α)
    (hc : (⟨1, ![B]⟩ : Shape).ShapeCasts ⟨2, ![1, B]⟩)
    (h2 : (⟨2, ![1, B]⟩ : Shape).BroadcastsInDim ⟨2, ![N, B]⟩ ![0, 1]) :
    broadcastInDim ⟨2, ![N, B]⟩ ![0, 1] h2 (shapeCast ⟨2, ![1, B]⟩ b hc) = fun i => b (ix1 (i 1)) := by
  funext i
  obtain ⟨n, f, rfl⟩ : ∃ (n : Fin N) (f : Fin B), i = ix2 n f := ⟨i 0, i 1, eq_ix2 i⟩
  rw [bcast_rows_apply, shapeCast_a_1a_apply]
  rfl

/-- (c) A vector `[B]` viewed as a row, read at `(0, f)`. -/
theorem cast_row_apply (b : (⟨1, ![B]⟩ : Shape).Idx → α) (hc : (⟨1, ![B]⟩ : Shape).ShapeCasts ⟨2, ![1, B]⟩)
    (f : Fin B) : (shapeCast ⟨2, ![1, B]⟩ b hc) (ix2 (0 : Fin 1) f) = b (ix1 f) :=
  shapeCast_a_1a_apply b hc 0 f

end Bias

/-! ## (L4) A broadcast scalar -/

/-- A scalar array broadcast to any shape is constant. -/
theorem bcast_scalar {α : Type} (s : Shape) (c : (⟨0, ![]⟩ : Shape).Idx → α)
    (h : (⟨0, ![]⟩ : Shape).BroadcastsInDim s ![]) : broadcastInDim s ![] h c = fun _ => c ix0 := by
  funext j
  exact broadcastInDim_apply _ h c j ix0 (fun a => a.elim0)

/-- A scalar float constant broadcast to any shape is the extended real its word encodes, everywhere. -/
theorem bcast_constant {φ : FTy} (s : Shape) (w : BitVec φ.bits) (h : (⟨0, ![]⟩ : Shape).BroadcastsInDim s ![]) :
    broadcastInDim s ![] h (constant (F := Ideal) ⟨0, ![]⟩ φ w) = fun _ => Ideal.ofBits φ w := by
  rw [bcast_scalar]
  rfl

/-- The `f32` word `0x40000000` is the real number 2. -/
theorem ofBits_two_f32 : Ideal.ofBits .f32 0x40000000#32 = ((2 : ℝ) : EReal) := by
  simp [Ideal.ofBits, Ideal.ieee]
  norm_cast
  norm_num

/-! ## (L5) Pointwise arithmetic on whole arrays -/

section Pointwise
variable {s : Shape} {φ : FTy}

/-- A sum of arrays is the pointwise sum. -/
theorem addf_fun (a b : FVec Ideal s φ) : addf a b = fun i => a i + b i := rfl
/-- A difference of arrays is the pointwise difference. -/
theorem subf_fun (a b : FVec Ideal s φ) : subf a b = fun i => a i - b i := rfl
/-- A product of arrays is the pointwise product. -/
theorem mulf_fun (a b : FVec Ideal s φ) : mulf a b = fun i => a i * b i := rfl
/-- A maximum of arrays is the pointwise maximum. -/
theorem maximumf_fun (a b : FVec Ideal s φ) : maximumf a b = fun i => max (a i) (b i) := rfl
/-- A negated array is the pointwise negation. -/
theorem negf_fun (a : FVec Ideal s φ) : negf a = fun i => - a i := rfl
/-- A narrowing change of float format is the identity on extended reals. -/
theorem truncf_fun {ψ : FTy} (a : FVec Ideal s φ) (h : ψ.bits < φ.bits) : (truncf ψ a h : FVec Ideal s ψ) = a := rfl
/-- A widening change of float format is the identity on extended reals. -/
theorem extf_fun {ψ : FTy} (a : FVec Ideal s φ) (h : φ.bits < ψ.bits) : (extf ψ a h : FVec Ideal s ψ) = a := rfl

end Pointwise

end HostForms

end
-- ==== Proof.LibMatmulForms.lean ====
/-
  A kernel matrix product `[N, A] × [A, B]` accumulated into `acc`, at the ideal instance, read at row `r` and column
  `f`: the accumulator's entry plus the sum over the inner coordinate `k` of `X (r, k) · W (k, f)` — for any dimension
  numbers whose fields are the plain product's (contract the left operand's axis 1 with the right operand's axis 0,
  no batch axes). The host's `dot_general` with the same dimension numbers is the same sum without the accumulator, so
  the statement is read off that one.
-/
import proofs.«152118_j65420941853234_2_alg».proof.Proof.LibHostForms

noncomputable section

open scoped BigOperators

namespace MatmulForms

open Idealize.ShloMosaic Idealize.ShloMosaic.ValueIdx

variable {N A B : Nat}

/-- The kernel's product at `(r, f)`: the accumulator there plus the inner sum. -/
theorem matmul_mm_apply {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂)
    (acc : FVec Ideal ⟨2, ![N, B]⟩ .f32) (r : Fin N) (f : Fin B) :
    FloatOps.matmul d prec X W acc (ix2 r f) = acc (ix2 r f) + ∑ k : Fin A, X (ix2 r k) * W (ix2 k f) := by
  have e := HostForms.dotGeneral_mm_apply d h1 h2 h3 h4 h5 h6 prec X W r f
  rw [show Host.dotGeneral (F := Ideal) d prec X W (ix2 r f) = FloatOps.dotGeneral d prec .single X W (ix2 r f) from rfl,
    Ideal.dotGeneral_apply] at e
  rw [Ideal.matmul_apply, e]

/-- Into the zero accumulator: the inner sum alone. -/
theorem matmul_zero_mm_apply {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂) (r : Fin N) (f : Fin B) :
    FloatOps.matmul d prec X W (constant ⟨2, ![N, B]⟩ .f32 0x00000000#32) (ix2 r f) = ∑ k : Fin A, X (ix2 r k) * W (ix2 k f) := by
  rw [matmul_mm_apply d h1 h2 h3 h4 h5 h6]
  show Ideal.ofBits .f32 0x00000000#32 + _ = _
  rw [Ideal.ofBits_zero_f32, zero_add]

end MatmulForms

end
-- ==== Proof.Spec.lean ====
/-
  One step of the gated recurrent cell as a function of its eleven argument arrays, entry by entry, written twice.

  Notation. x, h : 262144 × 128; every weight is 128 × 128. For a weight B, bias B q is the q-th column sum of B
  (started from zero). For a gate pre-activation p the reference's gate is 1 / (1 + exp (−p)) and the kernel's is
  ½ · (tanh (½ · p) + 1).
    update pre-activation   zpre  = x·Wu + h·Uu + bias Bu                       (the same in both programs)
    reset pre-activation    rpreR = x·Wr + x·Ur + bias Br     (reference)    rpreK = x·(Wr + Ur) + bias Br     (kernel)
    candidate               cand g = tanh (x·Whᵀ + (g ⊙ h)·Uhᵀ + bias Bh)       for a reset gate g
    new state               (1 − z) ⊙ h + z ⊙ cand                             for an update gate z
  On the extended reals the two gates differ at ±∞ and a product does not distribute over a sum, so the two writings
  are equal only where the pre-activations are real numbers: that is what finite inputs give. On the reals
  ½ (tanh (a/2) + 1) = e^{a/2} / (e^{a/2} + e^{−a/2}) = 1 / (1 + e^{−a}).
-/
import Idealize.ShloMosaic.PureOps.Ideal
import Idealize.ShloMosaic.PureOps.Ideal.Laws
import Idealize.ShloMosaic.Lib.ValueIdx

noncomputable section

open scoped BigOperators

namespace Cert.GruSpec

open Idealize.ShloMosaic Idealize.ShloMosaic.ValueIdx

/-- The batch arrays' shape and the weights' shape. -/
abbrev SB : Shape := ⟨2, ![262144, 128]⟩
abbrev SW : Shape := ⟨2, ![128, 128]⟩

/-- The row and the column of an entry of a batch array. -/
abbrev rowOf (i : SB.Idx) : Fin 262144 := ⟨(i 0).val, (i 0).isLt⟩
abbrev colOf (i : SB.Idx) : Fin 128 := ⟨(i 1).val, (i 1).isLt⟩

/-- The three float constants of the two programs: 0, ½ and 1, as their f32 words. -/
abbrev zero : EReal := Ideal.ofBits .f32 0x00000000#32
abbrev half : EReal := Ideal.ofBits .f32 0x3F000000#32
abbrev one : EReal := Ideal.ofBits .f32 0x3F800000#32

theorem zero_eq : zero = ((0 : ℝ) : EReal) := by
  show Ideal.ofBits .f32 0x00000000#32 = _
  rw [Ideal.ofBits_zero_f32]; rfl

theorem half_eq : half = ((1 / 2 : ℝ) : EReal) := by
  show Ideal.ofBits .f32 0x3F000000#32 = _
  simp [Ideal.ofBits, Ideal.ieee]
  norm_cast
  norm_num

theorem one_eq : one = ((1 : ℝ) : EReal) := by
  show Ideal.ofBits .f32 0x3F800000#32 = _
  simp [Ideal.ofBits, Ideal.ieee]
  norm_cast
  norm_num

/-- The kernel's gate: ½ · (tanh (½ · p) + 1). -/
def sigT (p : EReal) : EReal := half * (Ideal.tanh (half * p) + one)
/-- The reference's gate: 1 / (1 + exp (−p)). -/
def sigE (p : EReal) : EReal := Ideal.div one (one + Ideal.exp (-p))

/-- On the reals the two gates are one function. -/
theorem real_gate (a : ℝ) : (1 / 2 : ℝ) * (Real.tanh ((1 / 2) * a) + 1) = 1 * (1 / (1 + Real.exp (-a))) := by
  have hu : 0 < Real.exp ((1 / 2) * a) := Real.exp_pos _
  have e1 : Real.exp (-((1 / 2) * a)) = (Real.exp ((1 / 2) * a))⁻¹ := Real.exp_neg _
  have e2 : Real.exp (-a) = (Real.exp ((1 / 2) * a))⁻¹ * (Real.exp ((1 / 2) * a))⁻¹ := by
    rw [← e1, ← Real.exp_add]; congr 1; ring
  rw [Real.tanh_eq_sinh_div_cosh, Real.sinh_eq, Real.cosh_eq, e1, e2]
  generalize Real.exp ((1 / 2) * a) = u at hu
  have hu0 : u ≠ 0 := ne_of_gt hu
  field_simp
  ring

/-- At a real pre-activation the kernel's gate is the reference's. -/
theorem sig_eq (a : ℝ) : sigT (a : EReal) = sigE (a : EReal) := by
  have hpos : (1 + Real.exp (-a)) ≠ 0 := ne_of_gt (by have := Real.exp_pos (-a); linarith)
  unfold sigT sigE
  rw [half_eq, one_eq, ← EReal.coe_mul, Ideal.tanh_coe, ← EReal.coe_add, ← EReal.coe_mul,
    ← EReal.coe_neg, Ideal.exp_coe, ← EReal.coe_add, Ideal.div_coe hpos, ← EReal.coe_mul, real_gate]

/-! ## Sums of real entries -/

/-- The coercion of a finite sum of reals is the sum of the coercions. -/
theorem coe_sum {κ : Type*} (s : Finset κ) (f : κ → ℝ) : ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- A finite sum of real entries is real. -/
theorem real_sum {n : ℕ} (f : Fin n → EReal) (hf : ∀ k, ∃ r : ℝ, f k = (r : EReal)) : ∃ r : ℝ, ∑ k, f k = (r : EReal) := by
  choose f' hf' using hf
  exact ⟨∑ k, f' k, by rw [coe_sum]; exact Finset.sum_congr rfl fun k _ => hf' k⟩

/-- A finite sum of products of real entries is real. -/
theorem real_dot {n : ℕ} (f g : Fin n → EReal) (hf : ∀ k, ∃ r : ℝ, f k = (r : EReal)) (hg : ∀ k, ∃ r : ℝ, g k = (r : EReal)) :
    ∃ r : ℝ, ∑ k, f k * g k = (r : EReal) :=
  real_sum _ fun k => by
    obtain ⟨a, ha⟩ := hf k; obtain ⟨b, hb⟩ := hg k
    exact ⟨a * b, by rw [ha, hb, EReal.coe_mul]⟩

theorem real_add {a b : EReal} (ha : ∃ r : ℝ, a = (r : EReal)) (hb : ∃ r : ℝ, b = (r : EReal)) : ∃ r : ℝ, a + b = (r : EReal) := by
  obtain ⟨x, rfl⟩ := ha; obtain ⟨y, rfl⟩ := hb
  exact ⟨x + y, (EReal.coe_add x y).symm⟩

/-- On real entries a sum of products with a sum distributes. -/
theorem dot_add {n : ℕ} (x a b : Fin n → EReal) (hx : ∀ k, ∃ r : ℝ, x k = (r : EReal)) (ha : ∀ k, ∃ r : ℝ, a k = (r : EReal))
    (hb : ∀ k, ∃ r : ℝ, b k = (r : EReal)) :
    ∑ k, x k * (a k + b k) = ∑ k, x k * a k + ∑ k, x k * b k := by
  choose x' hx' using hx
  choose a' ha' using ha
  choose b' hb' using hb
  have e1 : ∀ k, x k * (a k + b k) = ((x' k * a' k + x' k * b' k : ℝ) : EReal) := fun k => by
    rw [hx', ha', hb', ← EReal.coe_add, ← EReal.coe_mul, mul_add]
  have e2 : ∀ k, x k * a k = ((x' k * a' k : ℝ) : EReal) := fun k => by rw [hx', ha', EReal.coe_mul]
  have e3 : ∀ k, x k * b k = ((x' k * b' k : ℝ) : EReal) := fun k => by rw [hx', hb', EReal.coe_mul]
  rw [Finset.sum_congr rfl fun k _ => e1 k, Finset.sum_congr rfl fun k _ => e2 k, Finset.sum_congr rfl fun k _ => e3 k,
    ← coe_sum, ← coe_sum, ← coe_sum, ← EReal.coe_add, Finset.sum_add_distrib]

/-! ## The cell, entry by entry -/

section Cell
variable (X H : SB.Idx → EReal) (Wu Uu Bu Wr Ur Br Wh Uh Bh : SW.Idx → EReal)

/-- The q-th column sum of a weight, started from zero. -/
def bias (B : SW.Idx → EReal) (q : Fin 128) : EReal := zero + ∑ k : Fin 128, B (ix2 k q)
/-- Entry (R, q) of a batch array times a weight. -/
def mm (A : SB.Idx → EReal) (W : SW.Idx → EReal) (R : Fin 262144) (q : Fin 128) : EReal := ∑ k : Fin 128, A (ix2 R k) * W (ix2 k q)
/-- Entry (R, q) of a batch array times a weight's transpose. -/
def mmT (A : SB.Idx → EReal) (W : SW.Idx → EReal) (R : Fin 262144) (q : Fin 128) : EReal := ∑ k : Fin 128, A (ix2 R k) * W (ix2 q k)

def zpre (R : Fin 262144) (q : Fin 128) : EReal := (mm X Wu R q + mm H Uu R q) + bias Bu q
def rpreR (R : Fin 262144) (q : Fin 128) : EReal := (mm X Wr R q + mm X Ur R q) + bias Br q
def rpreK (R : Fin 262144) (q : Fin 128) : EReal := (∑ k : Fin 128, X (ix2 R k) * (Wr (ix2 k q) + Ur (ix2 k q))) + bias Br q

/-- The candidate state for a reset gate g. -/
def cand (g : Fin 262144 → Fin 128 → EReal) (R : Fin 262144) (q : Fin 128) : EReal :=
  Ideal.tanh ((mmT X Wh R q + ∑ k : Fin 128, (g R k * H (ix2 R k)) * Uh (ix2 q k)) + bias Bh q)
/-- The blend of the old state and the candidate by an update gate z. -/
def blend (z h c : EReal) : EReal := (one - z) * h + z * c

def candK (R : Fin 262144) (q : Fin 128) : EReal := cand X H Wh Uh Bh (fun R k => sigT (rpreK X Wr Ur Br R k)) R q
def candR (R : Fin 262144) (q : Fin 128) : EReal := cand X H Wh Uh Bh (fun R k => sigE (rpreR X Wr Ur Br R k)) R q
def newK (R : Fin 262144) (q : Fin 128) : EReal :=
  blend (sigT (zpre X H Wu Uu Bu R q)) (H (ix2 R q)) (candK X H Wr Ur Br Wh Uh Bh R q)
def newR (R : Fin 262144) (q : Fin 128) : EReal :=
  blend (sigE (zpre X H Wu Uu Bu R q)) (H (ix2 R q)) (candR X H Wr Ur Br Wh Uh Bh R q)

variable (hX : ∀ i, ∃ r : ℝ, X i = (r : EReal)) (hH : ∀ i, ∃ r : ℝ, H i = (r : EReal))
  (hWu : ∀ i, ∃ r : ℝ, Wu i = (r : EReal)) (hUu : ∀ i, ∃ r : ℝ, Uu i = (r : EReal)) (hBu : ∀ i, ∃ r : ℝ, Bu i = (r : EReal))
  (hWr : ∀ i, ∃ r : ℝ, Wr i = (r : EReal)) (hUr : ∀ i, ∃ r : ℝ, Ur i = (r : EReal)) (hBr : ∀ i, ∃ r : ℝ, Br i = (r : EReal))

include hBu in
theorem real_bias_u (q : Fin 128) : ∃ r : ℝ, bias Bu q = (r : EReal) :=
  real_add ⟨0, zero_eq⟩ (real_sum _ fun k => hBu _)

include hX hH hWu hUu hBu in
/-- The update pre-activation is real, so the two update gates agree. -/
theorem gate_z (R : Fin 262144) (q : Fin 128) : sigT (zpre X H Wu Uu Bu R q) = sigE (zpre X H Wu Uu Bu R q) := by
  obtain ⟨a, ha⟩ : ∃ r : ℝ, zpre X H Wu Uu Bu R q = (r : EReal) :=
    real_add (real_add (real_dot _ _ (fun k => hX _) (fun k => hWu _)) (real_dot _ _ (fun k => hH _) (fun k => hUu _)))
      (real_bias_u Bu hBu q)
  rw [ha, sig_eq]

include hX hWr hUr hBr in
/-- The two reset pre-activations are equal and real, so the two reset gates agree. -/
theorem gate_r (R : Fin 262144) (q : Fin 128) : sigT (rpreK X Wr Ur Br R q) = sigE (rpreR X Wr Ur Br R q) := by
  have e : rpreK X Wr Ur Br R q = rpreR X Wr Ur Br R q := by
    unfold rpreK rpreR mm
    rw [dot_add _ _ _ (fun k => hX _) (fun k => hWr _) (fun k => hUr _)]
  obtain ⟨a, ha⟩ : ∃ r : ℝ, rpreR X Wr Ur Br R q = (r : EReal) :=
    real_add (real_add (real_dot _ _ (fun k => hX _) (fun k => hWr _)) (real_dot _ _ (fun k => hX _) (fun k => hUr _)))
      (real_bias_u Br hBr q)
  rw [e, ha, sig_eq]

include hX hWr hUr hBr in
/-- The candidate state, the kernel's way and the reference's. -/
theorem candK_eq : candK X H Wr Ur Br Wh Uh Bh = candR X H Wr Ur Br Wh Uh Bh := by
  funext R q
  unfold candK candR
  rw [show (fun R k => sigT (rpreK X Wr Ur Br R k)) = fun R k => sigE (rpreR X Wr Ur Br R k) from
    funext fun R => funext fun k => gate_r X Wr Ur Br hX hWr hUr hBr R k]

include hX hH hWu hUu hBu hWr hUr hBr in
/-- The new state, the kernel's way and the reference's. -/
theorem newK_eq : newK X H Wu Uu Bu Wr Ur Br Wh Uh Bh = newR X H Wu Uu Bu Wr Ur Br Wh Uh Bh := by
  funext R q
  unfold newK newR
  rw [gate_z X H Wu Uu Bu hX hH hWu hUu hBu, candK_eq X H Wr Ur Br Wh Uh Bh hX hWr hUr hBr]

end Cell

end Cert.GruSpec

end
-- ==== Proof.KernelBlock.lean ====
/-
  The kernel body's arithmetic at one entry of the block, at the ideal values. Entry (p, q) of either output block
  depends only on row p of the x block and of the h block, on the three weight blocks and on the three bias rows:
    reset gate      r k  = ½ (tanh (½ (Σ_j x_j · Wcat[j, 128 + k] + br[k])) + 1)
    candidate       c q  = tanh (Σ_k x_k · Wcat[k, 256 + q] + Σ_k (r k · h_k) · UhT[k, q] + bh[q])
    update gate     z q  = ½ (tanh (½ (Σ_k x_k · Wcat[k, q] + Σ_k h_k · Uu[k, q] + bz[q])) + 1)
    new state            = (1 − z q) · h_q + z q · c q
  where Wcat is the 128 × 384 weight block; a change of float format is the identity here, a matrix product into a zero
  accumulator is the plain sum, and a slice of the wide product at column offset o reads the product at column o + q.
-/
import proofs.«152118_j65420941853234_2_alg».proof.Proof.IdealFrame
import proofs.«152118_j65420941853234_2_alg».proof.Proof.LibMatmulForms
import proofs.«152118_j65420941853234_2_alg».proof.Proof.Spec
import Idealize.ShloMosaic.Lib.ValueLayout
import Idealize.ShloMosaic.Lib.Pipeline.Value

noncomputable section

open scoped BigOperators

namespace Cert.KernelIdeal.Val

open Cert.KernelIdeal Cert.KernelIdeal.Gen Cert.KernelIdeal.Fr Cert.GruSpec
open Idealize.ShloMosaic Idealize.ShloMosaic.ValueIdx

/-- Column o + q of a 384-wide row. -/
abbrev col (o : ℕ) (ho : o + 128 ≤ 384) (q : Fin 128) : Fin 384 := ⟨o + q.val, by omega⟩

/-! ## The row functions -/

section Rows
variable (xr hr : Fin 128 → EReal) (Wcat : S128x384.Idx → EReal) (Uu UhT : S128x128.Idx → EReal) (bz br bh : S1x128.Idx → EReal)

/-- The reset gate of the row at column k. -/
def resetRow (k : Fin 128) : EReal :=
  sigT ((∑ j : Fin 128, xr j * Wcat (ix2 j (col 128 (by decide) k))) + br (ix2 (0 : Fin 1) k))

/-- The candidate state of the row at column q. -/
def candRow (q : Fin 128) : EReal :=
  Ideal.tanh (((∑ k : Fin 128, xr k * Wcat (ix2 k (col 256 (by decide) q)))
    + ∑ k : Fin 128, (resetRow xr Wcat br k * hr k) * UhT (ix2 k q)) + bh (ix2 (0 : Fin 1) q))

/-- The new state of the row at column q, given the candidate there. -/
def newRow (q : Fin 128) (c : EReal) : EReal :=
  blend (sigT (((∑ k : Fin 128, xr k * Wcat (ix2 k (col 0 (by decide) q))) + ∑ k : Fin 128, hr k * Uu (ix2 k q)) + bz (ix2 (0 : Fin 1) q)))
    (hr q) c

end Rows

/-! ## The non-pointwise operations of the body at an entry -/

/-- A 128-column slice of a 384-column array at column offset o reads column o + q. -/
theorem slice_apply (o : ℕ) (ho : o + 128 ≤ 384) (Y : S4096x384.Idx → EReal) (h : S4096x384.Slices ![0, o] S4096x128)
    (p : Fin 4096) (q : Fin 128) :
    extractStridedSlice S4096x128 ![0, o] Y h (ix2 p q) = Y (ix2 p (col o ho q)) :=
  extractStridedSlice_apply _ Y h _ _ (fun a => by
    match a with
    | ⟨0, _⟩ => exact (Nat.zero_add _).symm
    | ⟨1, _⟩ => rfl)

/-- The wide product at (p, c): the sum over the inner coordinate. -/
theorem wide_apply (v0 : FVec Ideal S4096x128 .f32) (v3 : FVec Ideal S128x384 .bf16) (p : Fin 4096) (c : Fin 384) :
    k0_pay3 (F := Ideal) v0 v3 (ix2 p c) = ∑ k : Fin 128, v0 (ix2 p k) * v3 (ix2 k c) := by
  unfold k0_pay3
  rw [shapeCast_self]
  exact MatmulForms.matmul_zero_mm_apply dot_S4096x128_S128x384_S4096x384_1_0_0_1_n_n rfl rfl rfl rfl rfl rfl none _ _ p c

/-- A square product into the zero accumulator at (p, q). -/
theorem square_apply (a : FVec Ideal S4096x128 .bf16) (w : FVec Ideal S128x128 .bf16) (p : Fin 4096) (q : Fin 128) :
    matmul dot_S4096x128_S128x128_S4096x128_1_0_0_1_n_n none a (shapeCast S128x128 w shapeCasts_S128x128_S128x128)
      (constant S4096x128 .f32 0x00000000#32) (ix2 p q) = ∑ k : Fin 128, a (ix2 p k) * w (ix2 k q) := by
  rw [shapeCast_self]
  exact MatmulForms.matmul_zero_mm_apply dot_S4096x128_S128x128_S4096x128_1_0_0_1_n_n rfl rfl rfl rfl rfl rfl none _ _ p q

/-- A bias row broadcast down the 4096 rows reads its entry of the column. -/
theorem row_apply (v : FVec Ideal S1x128 .f32) (p : Fin 4096) (q : Fin 128) :
    broadcastTo S4096x128 (shapeCast S1x128 v shapeCasts_S1x128_S1x128) broadcasts_S1x128_S4096x128 (ix2 p q) = v (ix2 (0 : Fin 1) q) := by
  rw [shapeCast_self]
  exact broadcastTo_1b_ab_apply v _ p q

/-- A hyperbolic tangent of an array, at an entry. -/
theorem tanhv_apply {s : Shape} {φ : FTy} (a : FVec Ideal s φ) (i : s.Idx) : tanh a i = Ideal.tanh (a i) := rfl

/-! ## The two stored values at an entry -/

/-- The candidate the body stores, at (p, q): the row function of row p of the x and h blocks. -/
theorem cand_apply (v0 v2 : FVec Ideal S4096x128 .f32) (v3 : FVec Ideal S128x384 .bf16) (v7 : FVec Ideal S128x128 .bf16)
    (v11 v13 : FVec Ideal S1x128 .f32) (p : Fin 4096) (q : Fin 128) :
    k0_pay5 (F := Ideal) v0 v2 v3 v7 v11 v13 (ix2 p q)
      = candRow (fun k => v0 (ix2 p k)) (fun k => v2 (ix2 p k)) v3 v7 v11 v13 q := by
  unfold k0_pay5 candRow resetRow
  simp only [tanhv_apply, addf_apply, mulf_apply, truncf_apply, broadcast_apply, slice_apply 128 (by decide),
    slice_apply 256 (by decide), wide_apply, square_apply, row_apply]
  rfl

/-- The new state the body stores, at (p, q), from any candidate array c. -/
theorem new_apply (v0 v2 : FVec Ideal S4096x128 .f32) (v3 : FVec Ideal S128x384 .bf16) (v5 : FVec Ideal S128x128 .bf16)
    (v9 : FVec Ideal S1x128 .f32) (c : FVec Ideal S4096x128 .f32) (p : Fin 4096) (q : Fin 128) :
    k0_pay1 (F := Ideal) v2 (k0_pay2 v9) (k0_pay4 v0 v3) c (k0_pay6 v2 v5) (ix2 p q)
      = newRow (fun k => v0 (ix2 p k)) (fun k => v2 (ix2 p k)) v3 v5 v9 q (c (ix2 p q)) := by
  unfold k0_pay1 k0_pay2 k0_pay4 k0_pay6 newRow blend
  simp only [tanhv_apply, addf_apply, subf_apply, mulf_apply, truncf_apply, broadcast_apply, slice_apply 0 (by decide),
    wide_apply, square_apply, row_apply]
  rfl

end Cert.KernelIdeal.Val

end
-- ==== Proof.KernelArrays.lean ====
/-
  The arrays the region stages that a host operation wrote, read at an entry in terms of the argument arrays (at the
  ideal values, where a change of float format is the identity):
    the wide weight        Wcat[k, q] = Wu[k, q],   Wcat[k, 128 + q] = Wr[k, q] + Ur[k, q],   Wcat[k, 256 + q] = Wh[q, k]
                           (the concatenation along the columns of Wu, Wr + Ur and the transpose of Wh)
    the update weight      is Uu;      the transposed candidate weight   UhT[k, q] = Uh[q, k]
    each bias row          b[0, q] = 0 + Σ_k B[k, q]   (a column sum kept as a row)
-/
import proofs.«152118_j65420941853234_2_alg».proof.Proof.IdealFrame
import proofs.«152118_j65420941853234_2_alg».proof.Proof.KernelBlock
import proofs.«152118_j65420941853234_2_alg».proof.Proof.LibHostForms
import Idealize.ShloMosaic.Lib.StableHlo.Run
import Idealize.ShloMosaic.Lib.Pipeline.Value
import Idealize.ShloMosaic.PureOps.Ideal.Laws

noncomputable section

open scoped BigOperators

namespace Cert.KernelIdeal.Val

open Cert.KernelIdeal Cert.KernelIdeal.Gen Cert.KernelIdeal.Fr Cert.GruSpec
open Idealize.ShloMosaic Idealize.ShloMosaic.TcCoe Idealize.SL.Sem Idealize.ShloMosaic.StableHlo Idealize.ShloMosaic.ValueIdx

/-- One more pass of reading each host operation's result at a literal buffer. -/
macro "results_again" : tactic =>
  `(tactic| repeat (first
      | rw [nullary_result] | rw [unary_result] | rw [binary_result] | rw [nary_result]
      | (rw [nullary_result_ne]; rotate_left; decide)
      | (rw [unary_result_ne]; rotate_left; decide)
      | (rw [binary_result_ne]; rotate_left; decide)
      | (rw [nary_result_ne]; rotate_left; decide)))

variable (m : (ℓ : Loc nD τ sig) → Buf (Elt Ideal) ℓ)

/-! ## The staged arrays as the host operations' terms -/

theorem V_v9 (c : Dev nD) : V m c main_v9
    = truncf (F := Ideal) .bf16 (concatenate S128x384 1 [⟨S128x128, (m ((c : Thread nD τ).loc main_arg2) : FVec Ideal S128x128 .f32)⟩,
        ⟨S128x128, addf (F := Ideal) (m ((c : Thread nD τ).loc main_arg5) : FVec Ideal S128x128 .f32) (m ((c : Thread nD τ).loc main_arg6))⟩,
        ⟨S128x128, transpose S128x128 [1, 0] (m ((c : Thread nD τ).loc main_arg8) : FVec Ideal S128x128 .f32) transposes_S128x128_S128x128_1_0⟩]
        concatenates_S128x128_S128x128_S128x128_S128x384_d1) bitsLt_bf16_f32 := by
  dsimp only [V]
  simp only [hostOps0, List.flatten_cons, List.flatten_nil, List.append_nil]
  after_results
  simp only [Matrix.cons_val_zero, Matrix.cons_val_one, Matrix.cons_val]
  results_again

theorem V_v10 (c : Dev nD) : V m c main_v10
    = truncf (F := Ideal) .bf16 (m ((c : Thread nD τ).loc main_arg3) : FVec Ideal S128x128 .f32) bitsLt_bf16_f32 := by
  dsimp only [V]
  simp only [hostOps0, List.flatten_cons, List.flatten_nil, List.append_nil]
  after_results
  try rfl

theorem V_v12 (c : Dev nD) : V m c main_v12
    = truncf (F := Ideal) .bf16 (transpose S128x128 [1, 0] (m ((c : Thread nD τ).loc main_arg9) : FVec Ideal S128x128 .f32)
        transposes_S128x128_S128x128_1_0) bitsLt_bf16_f32 := by
  dsimp only [V]
  simp only [hostOps0, List.flatten_cons, List.flatten_nil, List.append_nil]
  after_results
  try rfl

/-- A column sum kept as a row, as the host computes it. -/
abbrev biasRow (B : FVec Ideal S128x128 .f32) : FVec Ideal S1x128 .f32 :=
  broadcastInDim S1x128 ![1] bcast_S128_S1x128_1
    (Host.reduceAdd (F := Ideal) B (constant (F := Ideal) S_ .f32 0x00000000#32) reducesTo_S128x128_S128_d0 h_S_)

theorem V_v1 (c : Dev nD) : V m c main_v1 = biasRow (m ((c : Thread nD τ).loc main_arg4)) := by
  dsimp only [V]
  simp only [hostOps0, List.flatten_cons, List.flatten_nil, List.append_nil]
  after_results
  try rfl

theorem V_v3 (c : Dev nD) : V m c main_v3 = biasRow (m ((c : Thread nD τ).loc main_arg7)) := by
  dsimp only [V]
  simp only [hostOps0, List.flatten_cons, List.flatten_nil, List.append_nil]
  after_results
  try rfl

theorem V_v5 (c : Dev nD) : V m c main_v5 = biasRow (m ((c : Thread nD τ).loc main_arg10)) := by
  dsimp only [V]
  simp only [hostOps0, List.flatten_cons, List.flatten_nil, List.append_nil]
  after_results
  try rfl

/-! ## The same at an entry -/

/-- A bias row at column q is the column sum from zero. -/
theorem biasRow_apply (B : FVec Ideal S128x128 .f32) (q : Fin 128) : biasRow B (ix2 (0 : Fin 1) q) = bias B q := by
  unfold biasRow bias
  rw [HostForms.bcast_row_apply]
  simp only [Host.reduceAdd, Ideal.hostReduceAdd_def]
  rw [Ideal.hostReduceAdd_single reducesTo_S128x128_S128_d0 (by decide)]
  refine congrArg₂ (· + ·) rfl (Finset.sum_congr rfl fun k _ => ?_)
  exact congrArg B (funext fun a => Fin.ext (by match a with | ⟨0, _⟩ => rfl | ⟨1, _⟩ => rfl))

section Wide
variable (A B C : FVec Ideal S128x128 .f32)

/-- The concatenation along the columns of three square arrays. -/
abbrev cat3 : FVec Ideal S128x384 .f32 :=
  concatenate S128x384 1 [⟨S128x128, A⟩, ⟨S128x128, B⟩, ⟨S128x128, C⟩] concatenates_S128x128_S128x128_S128x128_S128x384_d1

theorem cat3_left (k q : Fin 128) : cat3 A B C (ix2 k (col 0 (by decide) q)) = A (ix2 k q) :=
  concatenate_apply_piece (t := S128x384) (a := (1 : Fin 2)) (xs := [⟨S128x128, A⟩, ⟨S128x128, B⟩, ⟨S128x128, C⟩])
    (h := concatenates_S128x128_S128x128_S128x128_S128x384_d1) (j := ix2 k (col 0 (by decide) q)) (k := 0) (hk := by show (0 : ℕ) < 3; decide)
    (s₁ := S128x128) (x₁ := A) (hxk := rfl) (hr := rfl) (pre := 0) (hpre := rfl) (i := ix2 k q)
    (hi := fun b hb => by match b with | ⟨0, _⟩ => rfl | ⟨1, _⟩ => exact absurd rfl hb) (ha := rfl)

theorem cat3_mid (k q : Fin 128) : cat3 A B C (ix2 k (col 128 (by decide) q)) = B (ix2 k q) :=
  concatenate_apply_piece (t := S128x384) (a := (1 : Fin 2)) (xs := [⟨S128x128, A⟩, ⟨S128x128, B⟩, ⟨S128x128, C⟩])
    (h := concatenates_S128x128_S128x128_S128x128_S128x384_d1) (j := ix2 k (col 128 (by decide) q)) (k := 1) (hk := by show (1 : ℕ) < 3; decide)
    (s₁ := S128x128) (x₁ := B) (hxk := rfl) (hr := rfl) (pre := 128) (hpre := rfl) (i := ix2 k q)
    (hi := fun b hb => by match b with | ⟨0, _⟩ => rfl | ⟨1, _⟩ => exact absurd rfl hb) (ha := rfl)

theorem cat3_right (k q : Fin 128) : cat3 A B C (ix2 k (col 256 (by decide) q)) = C (ix2 k q) :=
  concatenate_apply_piece (t := S128x384) (a := (1 : Fin 2)) (xs := [⟨S128x128, A⟩, ⟨S128x128, B⟩, ⟨S128x128, C⟩])
    (h := concatenates_S128x128_S128x128_S128x128_S128x384_d1) (j := ix2 k (col 256 (by decide) q)) (k := 2) (hk := by show (2 : ℕ) < 3; decide)
    (s₁ := S128x128) (x₁ := C) (hxk := rfl) (hr := rfl) (pre := 256) (hpre := rfl) (i := ix2 k q)
    (hi := fun b hb => by match b with | ⟨0, _⟩ => rfl | ⟨1, _⟩ => exact absurd rfl hb) (ha := rfl)

end Wide

/-- A transposed square array at (k, q) is the array at (q, k). -/
theorem transposed_apply (A : FVec Ideal S128x128 .f32) (k q : Fin 128) :
    transpose S128x128 [1, 0] A transposes_S128x128_S128x128_1_0 (ix2 k q) = A (ix2 q k) :=
  transpose_apply [1, 0] A transposes_S128x128_S128x128_1_0 (ix2 k q) (ix2 q k) (fun b => match b with
    | ⟨0, _⟩ => rfl
    | ⟨1, _⟩ => rfl)

end Cert.KernelIdeal.Val

end
-- ==== Proof.KernelFinal.lean ====
/-
  From the blocks to the arrays. At grid point t the x and h windows stage rows 4096·t … 4096·t + 4095 of their arrays and
  the six small windows stage their whole arrays; the body's two stored values at (p, q) are the row functions of row
  4096·t + p; and the two result windows write their blocks back at the same rows. Every row lies in exactly the block
  t = row / 4096, so after the run the two result arrays hold, entry by entry, the kernel's writing of the cell
  (candK, newK) of the argument arrays as launched.
-/
import proofs.«152118_j65420941853234_2_alg».proof.Proof.IdealRun
import proofs.«152118_j65420941853234_2_alg».proof.Proof.KernelBlock
import proofs.«152118_j65420941853234_2_alg».proof.Proof.KernelArrays

noncomputable section

open scoped BigOperators

namespace Cert.KernelIdeal.Val

open Cert.KernelIdeal Cert.KernelIdeal.Gen Cert.KernelIdeal.Fr Cert.GruSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by
  match a with
  | ⟨0, _⟩ => rfl
  | ⟨1, _⟩ => rfl

/-! ## The index maps, decided over the grid -/

theorem idx_batch : ∀ t : Fin cfg0.N, win0_0.index t (0 : Fin 2) = t.val ∧ win0_0.index t (1 : Fin 2) = 0
    ∧ win0_1.index t (0 : Fin 2) = t.val ∧ win0_1.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

theorem idx_whole : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-! ## The input blocks, read -/

/-- Row p of the x block at point t is row 4096·t + p of x as launched. -/
theorem read_x (c : Dev nD) (t : Fin cfg0.N) (p : Fin 4096) (k : Fin 128) (R : Fin 262144) (hR : R.val = t.val * 4096 + p.val) :
    (iblk m c 0 t : FVec Ideal S4096x128 .f32) (ix2 p k) = (m ((c : Thread nD τ).loc main_arg0) : FVec Ideal S262144x128 .f32) (ix2 R k) := by
  obtain ⟨e0, e1, -⟩ := idx_batch t
  unfold iblk
  rw [View.read_apply]
  show V m c main_arg0 _ = m ((c : Thread nD τ).loc main_arg0) _
  rw [V_main_arg0]
  congr 1
  funext a
  apply Fin.ext
  match a with
  | ⟨0, _⟩ => show win0_0.index t (0 : Fin 2) * 4096 + 1 * p.val = R.val; rw [e0]; omega
  | ⟨1, _⟩ => show win0_0.index t (1 : Fin 2) * 128 + 1 * k.val = k.val; rw [e1]; omega

/-- Row p of the h block at point t is row 4096·t + p of h as launched. -/
theorem read_h (c : Dev nD) (t : Fin cfg0.N) (p : Fin 4096) (k : Fin 128) (R : Fin 262144) (hR : R.val = t.val * 4096 + p.val) :
    (iblk m c 1 t : FVec Ideal S4096x128 .f32) (ix2 p k) = (m ((c : Thread nD τ).loc main_arg1) : FVec Ideal S262144x128 .f32) (ix2 R k) := by
  obtain ⟨-, -, e0, e1, -⟩ := idx_batch t
  unfold iblk
  rw [View.read_apply]
  show V m c main_arg1 _ = m ((c : Thread nD τ).loc main_arg1) _
  rw [V_main_arg1]
  congr 1
  funext a
  apply Fin.ext
  match a with
  | ⟨0, _⟩ => show win0_1.index t (0 : Fin 2) * 4096 + 1 * p.val = R.val; rw [e0]; omega
  | ⟨1, _⟩ => show win0_1.index t (1 : Fin 2) * 128 + 1 * k.val = k.val; rw [e1]; omega

/-- The six small windows stage their whole arrays at every point. -/
theorem read_w2 (c : Dev nD) (t : Fin cfg0.N) : (iblk m c 2 t : FVec Ideal S128x384 .bf16) = V m c main_v9 := by
  obtain ⟨e0, e1, -⟩ := idx_whole t
  funext j
  unfold iblk
  rw [View.read_apply]
  show V m c main_v9 _ = V m c main_v9 j
  congr 1
  funext a
  apply Fin.ext
  match a with
  | ⟨0, _⟩ => show win0_2.index t (0 : Fin 2) * 128 + 1 * (j 0).val = (j 0).val; rw [e0]; omega
  | ⟨1, _⟩ => show win0_2.index t (1 : Fin 2) * 384 + 1 * (j 1).val = (j 1).val; rw [e1]; omega

theorem read_w3 (c : Dev nD) (t : Fin cfg0.N) : (iblk m c 3 t : FVec Ideal S128x128 .bf16) = V m c main_v10 := by
  obtain ⟨-, -, e0, e1, -⟩ := idx_whole t
  funext j
  unfold iblk
  rw [View.read_apply]
  show V m c main_v10 _ = V m c main_v10 j
  congr 1
  funext a
  apply Fin.ext
  match a with
  | ⟨0, _⟩ => show win0_3.index t (0 : Fin 2) * 128 + 1 * (j 0).val = (j 0).val; rw [e0]; omega
  | ⟨1, _⟩ => show win0_3.index t (1 : Fin 2) * 128 + 1 * (j 1).val = (j 1).val; rw [e1]; omega

theorem read_w4 (c : Dev nD) (t : Fin cfg0.N) : (iblk m c 4 t : FVec Ideal S128x128 .bf16) = V m c main_v12 := by
  obtain ⟨-, -, -, -, e0, e1, -⟩ := idx_whole t
  funext j
  unfold iblk
  rw [View.read_apply]
  show V m c main_v12 _ = V m c main_v12 j
  congr 1
  funext a
  apply Fin.ext
  match a with
  | ⟨0, _⟩ => show win0_4.index t (0 : Fin 2) * 128 + 1 * (j 0).val = (j 0).val; rw [e0]; omega
  | ⟨1, _⟩ => show win0_4.index t (1 : Fin 2) * 128 + 1 * (j 1).val = (j 1).val; rw [e1]; omega

theorem read_w5 (c : Dev nD) (t : Fin cfg0.N) : (iblk m c 5 t : FVec Ideal S1x128 .f32) = V m c main_v1 := by
  obtain ⟨-, -, -, -, -, -, e0, e1, -⟩ := idx_whole t
  funext j
  unfold iblk
  rw [View.read_apply]
  show V m c main_v1 _ = V m c main_v1 j
  congr 1
  funext a
  apply Fin.ext
  match a with
  | ⟨0, _⟩ => show win0_5.index t (0 : Fin 2) * 1 + 1 * (j 0).val = (j 0).val; rw [e0]; omega
  | ⟨1, _⟩ => show win0_5.index t (1 : Fin 2) * 128 + 1 * (j 1).val = (j 1).val; rw [e1]; omega

theorem read_w6 (c : Dev nD) (t : Fin cfg0.N) : (iblk m c 6 t : FVec Ideal S1x128 .f32) = V m c main_v3 := by
  obtain ⟨-, -, -, -, -, -, -, -, e0, e1, -⟩ := idx_whole t
  funext j
  unfold iblk
  rw [View.read_apply]
  show V m c main_v3 _ = V m c main_v3 j
  congr 1
  funext a
  apply Fin.ext
  match a with
  | ⟨0, _⟩ => show win0_6.index t (0 : Fin 2) * 1 + 1 * (j 0).val = (j 0).val; rw [e0]; omega
  | ⟨1, _⟩ => show win0_6.index t (1 : Fin 2) * 128 + 1 * (j 1).val = (j 1).val; rw [e1]; omega

theorem read_w7 (c : Dev nD) (t : Fin cfg0.N) : (iblk m c 7 t : FVec Ideal S1x128 .f32) = V m c main_v5 := by
  obtain ⟨-, -, -, -, -, -, -, -, -, -, e0, e1⟩ := idx_whole t
  funext j
  unfold iblk
  rw [View.read_apply]
  show V m c main_v5 _ = V m c main_v5 j
  congr 1
  funext a
  apply Fin.ext
  match a with
  | ⟨0, _⟩ => show win0_7.index t (0 : Fin 2) * 1 + 1 * (j 0).val = (j 0).val; rw [e0]; omega
  | ⟨1, _⟩ => show win0_7.index t (1 : Fin 2) * 128 + 1 * (j 1).val = (j 1).val; rw [e1]; omega

/-! ## The two result arrays, over the staged arrays -/

section Staged
variable (X H : FVec Ideal S262144x128 .f32) (W2 : FVec Ideal S128x384 .bf16) (W3 W4 : FVec Ideal S128x128 .bf16)
  (b5 b6 b7 : FVec Ideal S1x128 .f32)

/-- The candidate array, from the arrays the region stages. -/
def candArr : FVec Ideal S262144x128 .f32 := fun i =>
  candRow (fun k => X (ix2 (rowOf i) k)) (fun k => H (ix2 (rowOf i) k)) W2 W4 b6 b7 (colOf i)

/-- The new-state array, from the arrays the region stages. -/
def newArr : FVec Ideal S262144x128 .f32 := fun i =>
  newRow (fun k => X (ix2 (rowOf i) k)) (fun k => H (ix2 (rowOf i) k)) W2 W3 b5 (colOf i) (candArr X H W2 W4 b6 b7 i)

/-- The stored candidate at an entry j of a block whose rows are rows of X and H, at the array entry i it lands on. -/
theorem cand_glue (x0 x1 : FVec Ideal S4096x128 .f32) (j : S4096x128.Idx) (i : S262144x128.Idx)
    (h0 : ∀ k : Fin 128, x0 (ix2 (j 0) k) = X (ix2 (rowOf i) k)) (h1 : ∀ k : Fin 128, x1 (ix2 (j 0) k) = H (ix2 (rowOf i) k))
    (hq : (i 1).val = (j 1).val) :
    k0_pay5 (F := Ideal) x0 x1 W2 W4 b6 b7 j = candArr X H W2 W4 b6 b7 i := by
  obtain ⟨p, q, rfl⟩ : ∃ (p : Fin 4096) (q : Fin 128), j = ix2 p q := ⟨j 0, j 1, eq_ix2 j⟩
  rw [cand_apply]
  unfold candArr
  have e0 : (fun k => x0 (ix2 p k)) = fun k => X (ix2 (rowOf i) k) := funext h0
  have e1 : (fun k => x1 (ix2 p k)) = fun k => H (ix2 (rowOf i) k) := funext h1
  have eq : colOf i = q := Fin.ext hq
  rw [e0, e1, eq]

/-- The stored new state at an entry, likewise, from the stored candidate there. -/
theorem new_glue (x0 x1 : FVec Ideal S4096x128 .f32) (cnd : FVec Ideal S4096x128 .f32) (j : S4096x128.Idx) (i : S262144x128.Idx)
    (h0 : ∀ k : Fin 128, x0 (ix2 (j 0) k) = X (ix2 (rowOf i) k)) (h1 : ∀ k : Fin 128, x1 (ix2 (j 0) k) = H (ix2 (rowOf i) k))
    (hq : (i 1).val = (j 1).val) (hc : cnd j = candArr X H W2 W4 b6 b7 i) :
    k0_pay1 (F := Ideal) x1 (k0_pay2 b5) (k0_pay4 x0 W2) cnd (k0_pay6 x1 W3) j = newArr X H W2 W3 W4 b5 b6 b7 i := by
  obtain ⟨p, q, rfl⟩ : ∃ (p : Fin 4096) (q : Fin 128), j = ix2 p q := ⟨j 0, j 1, eq_ix2 j⟩
  rw [new_apply, hc]
  unfold newArr
  have e0 : (fun k => x0 (ix2 p k)) = fun k => X (ix2 (rowOf i) k) := funext h0
  have e1 : (fun k => x1 (ix2 p k)) = fun k => H (ix2 (rowOf i) k) := funext h1
  have eq : colOf i = q := Fin.ext hq
  rw [e0, e1, eq]

end Staged

/-- The two result arrays of core c after the run, over the arrays the region stages. -/
abbrev candOut (c : Dev nD) : FVec Ideal S262144x128 .f32 :=
  candArr (m ((c : Thread nD τ).loc main_arg0)) (m ((c : Thread nD τ).loc main_arg1)) (V m c main_v9) (V m c main_v12) (V m c main_v3) (V m c main_v5)
abbrev newOut (c : Dev nD) : FVec Ideal S262144x128 .f32 :=
  newArr (m ((c : Thread nD τ).loc main_arg0)) (m ((c : Thread nD τ).loc main_arg1)) (V m c main_v9) (V m c main_v10) (V m c main_v12)
    (V m c main_v1) (V m c main_v3) (V m c main_v5)

/-! ## What each point writes back -/

/-- The candidate block written back at point t is block t of the candidate array. -/
theorem flushed9_eq (c : Dev nD) (t : Fin cfg0.N) :
    (dats m 0 c).flushed 9 t = ((cfg0.win 9).blk t).view.read (Elt Ideal) (candOut m c) := by
  show (cfg0.win 9).cut (grid0.coords t) ((dats m 0 c).after 9 t) = _
  rw [after0_9]
  unfold out_cand candOf
  rw [View.canon_unit_zero hz2]
  simp only [View.ld_unit_zero (S := S4096x128) hz2, View.ld_unit_zero (S := S128x384) hz2, View.ld_unit_zero (S := S128x128) hz2,
    View.ld_unit_zero (S := S1x128) hz2]
  rw [read_w2, read_w4, read_w6, read_w7]
  obtain ⟨-, -, -, -, -, -, e0, e1⟩ := idx_batch t
  funext j
  refine cand_glue _ _ _ _ _ _ _ _ j _ (fun k => read_x m c t _ k _ ?_) (fun k => read_h m c t _ k _ ?_) ?_
  · show win0_9.index t (0 : Fin 2) * 4096 + 1 * (j 0).val = t.val * 4096 + (j 0).val; rw [e0]; omega
  · show win0_9.index t (0 : Fin 2) * 4096 + 1 * (j 0).val = t.val * 4096 + (j 0).val; rw [e0]; omega
  · show win0_9.index t (1 : Fin 2) * 128 + 1 * (j 1).val = (j 1).val; rw [e1]; omega

/-- The new-state block written back at point t is block t of the new-state array. -/
theorem flushed8_eq (c : Dev nD) (t : Fin cfg0.N) :
    (dats m 0 c).flushed 8 t = ((cfg0.win 8).blk t).view.read (Elt Ideal) (newOut m c) := by
  show (cfg0.win 8).cut (grid0.coords t) ((dats m 0 c).after 8 t) = _
  rw [after0_8]
  unfold out_new candOf
  rw [View.canon_unit_zero hz2]
  simp only [View.ld_unit_zero (S := S4096x128) hz2, View.ld_unit_zero (S := S128x384) hz2, View.ld_unit_zero (S := S128x128) hz2,
    View.ld_unit_zero (S := S1x128) hz2]
  rw [read_w2, read_w3, read_w4, read_w5, read_w6, read_w7]
  obtain ⟨-, -, -, -, e0, e1, -⟩ := idx_batch t
  funext j
  refine new_glue _ _ _ _ _ _ _ _ _ _ _ j _ (fun k => read_x m c t _ k _ ?_) (fun k => read_h m c t _ k _ ?_) ?_
    (cand_glue _ _ _ _ _ _ _ _ j _ (fun k => read_x m c t _ k _ ?_) (fun k => read_h m c t _ k _ ?_) ?_)
  · show win0_8.index t (0 : Fin 2) * 4096 + 1 * (j 0).val = t.val * 4096 + (j 0).val; rw [e0]; omega
  · show win0_8.index t (0 : Fin 2) * 4096 + 1 * (j 0).val = t.val * 4096 + (j 0).val; rw [e0]; omega
  · show win0_8.index t (1 : Fin 2) * 128 + 1 * (j 1).val = (j 1).val; rw [e1]; omega
  · show win0_8.index t (0 : Fin 2) * 4096 + 1 * (j 0).val = t.val * 4096 + (j 0).val; rw [e0]; omega
  · show win0_8.index t (0 : Fin 2) * 4096 + 1 * (j 0).val = t.val * 4096 + (j 0).val; rw [e0]; omega
  · show win0_8.index t (1 : Fin 2) * 128 + 1 * (j 1).val = (j 1).val; rw [e1]; omega

/-! ## Every row is in some block -/

theorem mem_blk8 (t : Fin cfg0.N) (i : S262144x128.Idx) :
    i ∈ ((cfg0.win 8).blk t).view.set ↔ ∀ a : Fin 2, win0_8.index t a * S4096x128.size a ≤ (i a).val ∧ (i a).val < win0_8.index t a * S4096x128.size a + S4096x128.size a := by
  show i ∈ ((View.whole main_v13_0).slice (win0_8.rect t)).set ↔ _
  rw [View.set_slice_whole, Rect.mem_set_unit]
  exact Iff.rfl

theorem mem_blk9 (t : Fin cfg0.N) (i : S262144x128.Idx) :
    i ∈ ((cfg0.win 9).blk t).view.set ↔ ∀ a : Fin 2, win0_9.index t a * S4096x128.size a ≤ (i a).val ∧ (i a).val < win0_9.index t a * S4096x128.size a + S4096x128.size a := by
  show i ∈ ((View.whole main_v13_1).slice (win0_9.rect t)).set ↔ _
  rw [View.set_slice_whole, Rect.mem_set_unit]
  exact Iff.rfl

/-- The point whose block holds a row: row / 4096. -/
def pointOf (i : S262144x128.Idx) : Fin cfg0.N := ⟨(i 0).val / 4096, by
  have h : (i 0).val < 262144 := (i 0).isLt
  show (i 0).val / 4096 < grid0.N
  rw [N_0]; omega⟩

theorem cover8 (i : S262144x128.Idx) : ∃ t : Fin cfg0.N, (cfg0.win 8).flush t = true ∧ i ∈ ((cfg0.win 8).blk t).view.set := by
  refine ⟨pointOf i, flush0_8 _, ?_⟩
  obtain ⟨-, -, -, -, e0, e1, -⟩ := idx_batch (pointOf i)
  have h1 : (i 1).val < 128 := (i 1).isLt
  have ht : (pointOf i).val = (i 0).val / 4096 := rfl
  rw [mem_blk8]
  intro a
  match a with
  | ⟨0, _⟩ => show win0_8.index (pointOf i) (0 : Fin 2) * 4096 ≤ (i 0).val ∧ (i 0).val < win0_8.index (pointOf i) (0 : Fin 2) * 4096 + 4096; rw [e0, ht]; omega
  | ⟨1, _⟩ => show win0_8.index (pointOf i) (1 : Fin 2) * 128 ≤ (i 1).val ∧ (i 1).val < win0_8.index (pointOf i) (1 : Fin 2) * 128 + 128; rw [e1]; omega

theorem cover9 (i : S262144x128.Idx) : ∃ t : Fin cfg0.N, (cfg0.win 9).flush t = true ∧ i ∈ ((cfg0.win 9).blk t).view.set := by
  refine ⟨pointOf i, flush0_9 _, ?_⟩
  obtain ⟨-, -, -, -, -, -, e0, e1⟩ := idx_batch (pointOf i)
  have h1 : (i 1).val < 128 := (i 1).isLt
  have ht : (pointOf i).val = (i 0).val / 4096 := rfl
  rw [mem_blk9]
  intro a
  match a with
  | ⟨0, _⟩ => show win0_9.index (pointOf i) (0 : Fin 2) * 4096 ≤ (i 0).val ∧ (i 0).val < win0_9.index (pointOf i) (0 : Fin 2) * 4096 + 4096; rw [e0, ht]; omega
  | ⟨1, _⟩ => show win0_9.index (pointOf i) (1 : Fin 2) * 128 ≤ (i 1).val ∧ (i 1).val < win0_9.index (pointOf i) (1 : Fin 2) * 128 + 128; rw [e1]; omega

/-- After the run the two result arrays hold the new-state array and the candidate array. -/
theorem final8 (c : Dev nD) : (dats m 0 c).arrAt 8 cfg0.N = newOut m c :=
  (dats m 0 c).arrAt_eq_of_cover 8 (newOut m c) (fun t _ => flushed8_eq m c t) cover8
theorem final9 (c : Dev nD) : (dats m 0 c).arrAt 9 cfg0.N = candOut m c :=
  (dats m 0 c).arrAt_eq_of_cover 9 (candOut m c) (fun t _ => flushed9_eq m c t) cover9

end Cert.KernelIdeal.Val

end
-- ==== Proof.KernelSpec.lean ====
/-
  The kernel's two result arrays in terms of the argument arrays as launched: substituting what the host operations
  wrote into the staged arrays (the wide weight's three column blocks, the two transposes, the three bias rows) turns
  the row functions into the kernel's writing of the cell, candK and newK.
-/
import proofs.«152118_j65420941853234_2_alg».proof.Proof.KernelFinal

noncomputable section

open scoped BigOperators

namespace Cert.KernelIdeal.Val

open Cert.KernelIdeal Cert.KernelIdeal.Gen Cert.KernelIdeal.Fr Cert.GruSpec
open Idealize.ShloMosaic Idealize.ShloMosaic.TcCoe Idealize.SL.Sem Idealize.ShloMosaic.ValueIdx

section Rows
variable (xr hr : Fin 128 → EReal) (Wu Uu Bu Wr Ur Br Wh Uh Bh : FVec Ideal S128x128 .f32)

/-- The wide weight as the host builds it. -/
abbrev wcatOf : FVec Ideal S128x384 .bf16 :=
  truncf (F := Ideal) .bf16 (cat3 Wu (addf (F := Ideal) Wr Ur) (transpose S128x128 [1, 0] Wh transposes_S128x128_S128x128_1_0)) bitsLt_bf16_f32

theorem candRow_args (q : Fin 128) :
    candRow xr hr (wcatOf Wu Wr Ur Wh) (truncf (F := Ideal) .bf16 (transpose S128x128 [1, 0] Uh transposes_S128x128_S128x128_1_0) bitsLt_bf16_f32)
      (biasRow Br) (biasRow Bh) q
    = Ideal.tanh (((∑ k : Fin 128, xr k * Wh (ix2 q k))
        + ∑ k : Fin 128, (sigT ((∑ j : Fin 128, xr j * (Wr (ix2 j k) + Ur (ix2 j k))) + bias Br k) * hr k) * Uh (ix2 q k)) + bias Bh q) := by
  unfold candRow resetRow wcatOf
  simp only [truncf_apply, cat3_mid, cat3_right, biasRow_apply, addf_apply]
  exact congrArg Ideal.tanh (congrArg₂ (· + ·) (congrArg₂ (· + ·)
    (Finset.sum_congr rfl fun k _ => congrArg (xr k * ·) (transposed_apply Wh k q))
    (Finset.sum_congr rfl fun k _ => congrArg (_ * ·) (transposed_apply Uh k q))) rfl)

theorem newRow_args (q : Fin 128) (cnd : EReal) :
    newRow xr hr (wcatOf Wu Wr Ur Wh) (truncf (F := Ideal) .bf16 Uu bitsLt_bf16_f32) (biasRow Bu) q cnd
    = blend (sigT (((∑ k : Fin 128, xr k * Wu (ix2 k q)) + ∑ k : Fin 128, hr k * Uu (ix2 k q)) + bias Bu q)) (hr q) cnd := by
  unfold newRow wcatOf
  simp only [truncf_apply, cat3_left, biasRow_apply]

end Rows

variable (m : (ℓ : Loc nD τ sig) → Buf (Elt Ideal) ℓ)

/-- The candidate array after the run is the kernel's writing of the candidate of the arguments. -/
theorem candOut_fun (c : Dev nD) : candOut m c = fun i =>
    candK (m ((c : Thread nD τ).loc main_arg0)) (m ((c : Thread nD τ).loc main_arg1)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (rowOf i) (colOf i) := by
  funext i
  unfold candOut candArr
  rw [V_v9, V_v12, V_v3, V_v5]
  exact candRow_args _ _ _ _ _ _ _ _ _ _

/-- The new-state array after the run is the kernel's writing of the new state of the arguments. -/
theorem newOut_fun (c : Dev nD) : newOut m c = fun i =>
    newK (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (rowOf i) (colOf i) := by
  funext i
  have hc := congrFun (candOut_fun m c) i
  unfold newOut newArr
  rw [show candArr _ _ _ _ _ _ i = candOut m c i from rfl, hc, V_v9, V_v10, V_v1]
  exact newRow_args _ _ _ _ _ _ _ _ _ _

end Cert.KernelIdeal.Val

end
-- ==== Proof.RefSpec.lean ====
/-
  The reference's two results, entry by entry, are the reference's writing of the cell (candR, newR): each matrix
  product is the sum over the inner coordinate, each bias a column sum broadcast down the rows, each gate
  1 / (1 + exp (−p)) of its pre-activation, and the two transposes read the weight at the swapped entry.
-/
import proofs.«152118_j65420941853234_2_alg».proof.Proof.Gen.ReferenceIdeal.Read
import proofs.«152118_j65420941853234_2_alg».proof.Proof.Spec

noncomputable section

open scoped BigOperators

namespace Cert.ReferenceIdeal.RefVal

open Cert.ReferenceIdeal Cert.ReferenceIdeal.Gen Cert.ReferenceIdeal.Read Cert.GruSpec
open Idealize.ShloMosaic Idealize.ShloMosaic.ValueIdx

variable (x0 x1 : FVec Ideal S262144x128 .f32) (x2 x3 x4 x5 x6 x7 x8 x9 x10 : FVec Ideal S128x128 .f32)

/-! ## The six matrix products -/

theorem dot3 (R : Fin 262144) (q : Fin 128) : val_main_v3 (F := Ideal) x0 x2 (ix2 R q) = mm x0 x2 R q := by
  rw [val_main_v3_apply]
  exact Finset.sum_congr rfl fun k _ => congrArg₂ (· * ·)
    (congrArg x0 (funext fun a => Fin.ext (by match a with | ⟨0, _⟩ => rfl | ⟨1, _⟩ => rfl)))
    (congrArg x2 (funext fun a => Fin.ext (by match a with | ⟨0, _⟩ => rfl | ⟨1, _⟩ => rfl)))

theorem dot4 (R : Fin 262144) (q : Fin 128) : val_main_v4 (F := Ideal) x1 x3 (ix2 R q) = mm x1 x3 R q := by
  rw [val_main_v4_apply]
  exact Finset.sum_congr rfl fun k _ => congrArg₂ (· * ·)
    (congrArg x1 (funext fun a => Fin.ext (by match a with | ⟨0, _⟩ => rfl | ⟨1, _⟩ => rfl)))
    (congrArg x3 (funext fun a => Fin.ext (by match a with | ⟨0, _⟩ => rfl | ⟨1, _⟩ => rfl)))

theorem dot15 (R : Fin 262144) (q : Fin 128) : val_main_v15 (F := Ideal) x0 x5 (ix2 R q) = mm x0 x5 R q := by
  rw [val_main_v15_apply]
  exact Finset.sum_congr rfl fun k _ => congrArg₂ (· * ·)
    (congrArg x0 (funext fun a => Fin.ext (by match a with | ⟨0, _⟩ => rfl | ⟨1, _⟩ => rfl)))
    (congrArg x5 (funext fun a => Fin.ext (by match a with | ⟨0, _⟩ => rfl | ⟨1, _⟩ => rfl)))

theorem dot16 (R : Fin 262144) (q : Fin 128) : val_main_v16 (F := Ideal) x0 x6 (ix2 R q) = mm x0 x6 R q := by
  rw [val_main_v16_apply]
  exact Finset.sum_congr rfl fun k _ => congrArg₂ (· * ·)
    (congrArg x0 (funext fun a => Fin.ext (by match a with | ⟨0, _⟩ => rfl | ⟨1, _⟩ => rfl)))
    (congrArg x6 (funext fun a => Fin.ext (by match a with | ⟨0, _⟩ => rfl | ⟨1, _⟩ => rfl)))

/-- The product with the transposed candidate weight. -/
theorem dot28 (R : Fin 262144) (q : Fin 128) : val_main_v28 (F := Ideal) x0 x8 (ix2 R q) = mmT x0 x8 R q := by
  rw [val_main_v28_apply]
  refine Finset.sum_congr rfl fun k _ => congrArg₂ (· * ·)
    (congrArg x0 (funext fun a => Fin.ext (by match a with | ⟨0, _⟩ => rfl | ⟨1, _⟩ => rfl))) ?_
  rw [val_main_v27_apply]
  exact congrArg x8 (funext fun a => Fin.ext (by match a with | ⟨0, _⟩ => rfl | ⟨1, _⟩ => rfl))

/-- The product of the gated state with the transposed recurrent candidate weight. -/
theorem dot31 (R : Fin 262144) (q : Fin 128) : val_main_v31 (F := Ideal) x0 x1 x5 x6 x7 x9 (ix2 R q)
    = ∑ k : Fin 128, val_main_v29 (F := Ideal) x0 x1 x5 x6 x7 (ix2 R k) * x9 (ix2 q k) := by
  rw [val_main_v31_apply]
  refine Finset.sum_congr rfl fun k _ => congrArg₂ (· * ·)
    (congrArg (val_main_v29 (F := Ideal) x0 x1 x5 x6 x7) (funext fun a => Fin.ext (by match a with | ⟨0, _⟩ => rfl | ⟨1, _⟩ => rfl))) ?_
  rw [val_main_v30_apply]
  exact congrArg x9 (funext fun a => Fin.ext (by match a with | ⟨0, _⟩ => rfl | ⟨1, _⟩ => rfl))

/-! ## The three biases -/

theorem bias7 (R : Fin 262144) (q : Fin 128) : val_main_v7 (F := Ideal) x4 (ix2 R q) = bias x4 q := by
  rw [val_main_v7_apply, val_main_v6_apply, val_main_v0_apply, val_main_cst_apply]
  exact congrArg₂ (· + ·) rfl (Finset.sum_congr rfl fun k _ =>
    congrArg x4 (funext fun a => Fin.ext (by match a with | ⟨0, _⟩ => rfl | ⟨1, _⟩ => rfl)))

theorem bias19 (R : Fin 262144) (q : Fin 128) : val_main_v19 (F := Ideal) x7 (ix2 R q) = bias x7 q := by
  rw [val_main_v19_apply, val_main_v18_apply, val_main_v1_apply, val_main_cst_0_apply]
  exact congrArg₂ (· + ·) rfl (Finset.sum_congr rfl fun k _ =>
    congrArg x7 (funext fun a => Fin.ext (by match a with | ⟨0, _⟩ => rfl | ⟨1, _⟩ => rfl)))

theorem bias34 (R : Fin 262144) (q : Fin 128) : val_main_v34 (F := Ideal) x10 (ix2 R q) = bias x10 q := by
  rw [val_main_v34_apply, val_main_v33_apply, val_main_v2_apply, val_main_cst_1_apply]
  exact congrArg₂ (· + ·) rfl (Finset.sum_congr rfl fun k _ =>
    congrArg x10 (funext fun a => Fin.ext (by match a with | ⟨0, _⟩ => rfl | ⟨1, _⟩ => rfl)))

/-! ## The two gates -/

/-- The update gate at (R, q). -/
theorem gate14 (R : Fin 262144) (q : Fin 128) :
    val_main_v14 (F := Ideal) x0 x1 x2 x3 x4 (ix2 R q) = sigE (zpre x0 x1 x2 x3 x4 R q) := by
  rw [val_main_v14_apply, val_main_v13_apply, val_main_cst_3_apply, val_main_v12_apply, val_main_v11_apply, val_main_cst_2_apply,
    val_main_v10_apply, val_main_v9_apply, val_main_v8_apply, val_main_v5_apply, dot3, dot4, bias7]
  rfl

/-- The reset gate at (R, k). -/
theorem gate26 (R : Fin 262144) (k : Fin 128) :
    val_main_v26 (F := Ideal) x0 x5 x6 x7 (ix2 R k) = sigE (rpreR x0 x5 x6 x7 R k) := by
  rw [val_main_v26_apply, val_main_v25_apply, val_main_cst_5_apply, val_main_v24_apply, val_main_v23_apply, val_main_cst_4_apply,
    val_main_v22_apply, val_main_v21_apply, val_main_v20_apply, val_main_v17_apply, dot15, dot16, bias19]
  rfl

/-! ## The two results -/

/-- The candidate state at (R, q). -/
theorem cand36 (R : Fin 262144) (q : Fin 128) :
    val_main_v36 (F := Ideal) x0 x1 x5 x6 x7 x8 x9 x10 (ix2 R q) = candR x0 x1 x5 x6 x7 x8 x9 x10 R q := by
  rw [val_main_v36_apply, val_main_v35_apply, val_main_v32_apply, dot28, dot31, bias34]
  have e : ∀ k : Fin 128, val_main_v29 (F := Ideal) x0 x1 x5 x6 x7 (ix2 R k) = sigE (rpreR x0 x5 x6 x7 R k) * x1 (ix2 R k) := fun k => by
    rw [val_main_v29_apply, gate26]; rfl
  rw [Finset.sum_congr rfl fun k _ => congrArg (· * x9 (ix2 q k)) (e k)]
  rfl

/-- The new state at (R, q). -/
theorem new41 (R : Fin 262144) (q : Fin 128) :
    val_main_v41 (F := Ideal) x0 x1 x2 x3 x4 x5 x6 x7 x8 x9 x10 (ix2 R q) = newR x0 x1 x2 x3 x4 x5 x6 x7 x8 x9 x10 R q := by
  rw [val_main_v41_apply, val_main_v39_apply, val_main_v40_apply, val_main_v38_apply, val_main_v37_apply, val_main_cst_6_apply,
    gate14, cand36]
  rfl

/-- The two results as whole arrays. -/
theorem cand_fun : val_main_v36 (F := Ideal) x0 x1 x5 x6 x7 x8 x9 x10
    = fun i => candR x0 x1 x5 x6 x7 x8 x9 x10 (rowOf i) (colOf i) := by
  funext i
  obtain ⟨R, q, rfl⟩ : ∃ (R : Fin 262144) (q : Fin 128), i = ix2 R q := ⟨i 0, i 1, eq_ix2 i⟩
  exact cand36 x0 x1 x5 x6 x7 x8 x9 x10 R q

theorem new_fun : val_main_v41 (F := Ideal) x0 x1 x2 x3 x4 x5 x6 x7 x8 x9 x10
    = fun i => newR x0 x1 x2 x3 x4 x5 x6 x7 x8 x9 x10 (rowOf i) (colOf i) := by
  funext i
  obtain ⟨R, q, rfl⟩ : ∃ (R : Fin 262144) (q : Fin 128), i = ix2 R q := ⟨i 0, i 1, eq_ix2 i⟩
  exact new41 x0 x1 x2 x3 x4 x5 x6 x7 x8 x9 x10 R q

end Cert.ReferenceIdeal.RefVal

end
-- ==== Proof.LibFiniteReal.lean ====
/-
  FROM "EVERY ENTRY IS BELOW +∞ IN ABSOLUTE VALUE" TO "EVERY ENTRY IS A REAL NUMBER", at the ideal values
  (floats are extended reals), independent of any particular program.
  A precondition "every entry of `x` is finite" prints, per float array `x`, as: the absolute value of `x`, the
  f32 word 0x7F800000 broadcast to `x`'s shape, their elementwise ordered less-than (an array of one-bit words), and the
  reduction of that array by `and` over all axes from the constant 1. This file reads that back:
  • `real_of_abs_lt_top`: an extended real whose absolute value compares below +∞ is a real number;
  • `ofBits_inf_f32`, `broadcast_inf_apply`: the word 0x7F800000 is +∞, and so is its broadcast at every index;
  • `forall_real_of_all_abs_lt`: if the reduction is 1 then every entry of `x` is a real number, against any array that
    is +∞ everywhere; `forall_real_of_all_abs_lt_inf`: the same against the broadcast word, the form a printed
    precondition has.
  The conclusion is spelt out, `∀ i, ∃ r : ℝ, x i = (r : EReal)`: the statement that `x` is an array of real numbers.
-/
import Idealize.ShloMosaic.Lib.ReduceAll
import Idealize.ShloMosaic.PureOps.Ideal

noncomputable section

namespace FiniteReal

open Idealize.ShloMosaic

/-- An extended real whose absolute value `max x (-x)` compares (ordered less-than, as a one-bit word) below +∞ is a
    real number: at ⊥ and at ⊤ the absolute value is ⊤, and ⊤ < ⊤ is false. -/
theorem real_of_abs_lt_top (x : EReal) (h : Ideal.cmp .olt (max x (-x)) ⊤ = 1#1) : ∃ r : ℝ, x = (r : EReal) := by
  induction x using EReal.rec with
  | bot => exact absurd h (by simp [Ideal.cmp])
  | coe r => exact ⟨r, rfl⟩
  | top => exact absurd h (by simp [Ideal.cmp])

/-- The f32 word 0x7F800000 denotes +∞. -/
theorem ofBits_inf_f32 : Ideal.ofBits .f32 0x7F800000#32 = ⊤ := by simp [Ideal.ofBits, Ideal.ieee]

/-- The word 0x7F800000 as a constant of any shape, broadcast to any shape, reads +∞ at every index. -/
theorem broadcast_inf_apply {u s : Shape} (dims : Fin u.rank → Fin s.rank) (hb : u.BroadcastsInDim s dims) (i : s.Idx) :
    broadcastInDim s dims hb (constant (F := Ideal) u .f32 0x7F800000#32) i = ⊤ := by
  unfold broadcastInDim
  exact ofBits_inf_f32

/-- If the `and` over ALL entries of "the absolute value of `x` is below `B`" is 1, and `B` is +∞ everywhere, then
    every entry of `x` is a real number. (`t` has one index: the reduction is over all axes.) -/
theorem forall_real_of_all_abs_lt {s t u : Shape} {axes : List (Fin s.rank)} [Subsingleton t.Idx]
    (x B : FVec Ideal s .f32) (hB : ∀ i, B i = ⊤) (init : u.Idx → BitVec 1) (h : s.ReducesTo axes t) (hu : 0 < u.numel)
    (j : t.Idx) (e : Host.reduce IntOp.andi (cmpf .olt (Host.absf x) B) init h hu j = 1#1) :
    ∀ i, ∃ r : ℝ, x i = (r : EReal) := fun i => by
  have hi := Host.reduce_andi_all (cmpf .olt (Host.absf x) B) init h hu j e i
  refine real_of_abs_lt_top (x i) ?_
  have : cmpf .olt (Host.absf x) B i = Ideal.cmp .olt (max (x i) (-(x i))) (B i) := rfl
  rw [this, hB i] at hi
  exact hi

/-- The printed form: against the word 0x7F800000 broadcast to `x`'s shape. -/
theorem forall_real_of_all_abs_lt_inf {s t u v : Shape} {axes : List (Fin s.rank)} [Subsingleton t.Idx]
    (x : FVec Ideal s .f32) (dims : Fin v.rank → Fin s.rank) (hb : v.BroadcastsInDim s dims)
    (init : u.Idx → BitVec 1) (h : s.ReducesTo axes t) (hu : 0 < u.numel) (j : t.Idx)
    (e : Host.reduce IntOp.andi
          (cmpf .olt (Host.absf x) (broadcastInDim s dims hb (constant (F := Ideal) v .f32 0x7F800000#32))) init h hu j = 1#1) :
    ∀ i, ∃ r : ℝ, x i = (r : EReal) :=
  forall_real_of_all_abs_lt x _ (broadcast_inf_apply dims hb) init h hu j e

end FiniteReal

end
-- ==== Proof.Finite.lean ====
/-
  The precondition, read: "every float input is finite" is printed as, for each of the eleven argument arrays, the
  conjunction over all entries of |entry| < +∞, and these eleven bits conjoined. If the whole is one, every entry of every
  argument array is a real number.
-/
import proofs.«152118_j65420941853234_2_alg».proof.Pre_finite_inputs
import proofs.«152118_j65420941853234_2_alg».proof.Proof.LibFiniteReal
import Idealize.ShloMosaic.Lib.ValueIdx

noncomputable section

namespace Cert.FiniteArgs

open Cert.Pre_finite_inputs Idealize.ShloMosaic

instance : Subsingleton S_.Idx := ⟨fun a b => funext fun d => d.elim0⟩

theorem reals_of_finite [Cert.Pre_finite_inputs.Facts] (a0 a1 : FVec Ideal S262144x128 .f32)
    (a2 a3 a4 a5 a6 a7 a8 a9 a10 : FVec Ideal S128x128 .f32)
    (h : fn (F := Ideal) a0 a1 a2 a3 a4 a5 a6 a7 a8 a9 a10 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal))
    ∧ (∀ i, ∃ r : ℝ, a6 i = (r : EReal)) ∧ (∀ i, ∃ r : ℝ, a7 i = (r : EReal)) ∧ (∀ i, ∃ r : ℝ, a8 i = (r : EReal))
    ∧ (∀ i, ∃ r : ℝ, a9 i = (r : EReal)) ∧ (∀ i, ∃ r : ℝ, a10 i = (r : EReal)) := by
  have h0 := congrFun h ValueIdx.ix0
  unfold fn fn_part1 fn_part2 fn_part3 at h0
  simp only [andi, IntOp.andi_eq_one] at h0
  obtain ⟨⟨⟨⟨⟨⟨⟨⟨⟨⟨p0, p1⟩, p2⟩, p3⟩, p4⟩, p5⟩, p6⟩, p7⟩, p8⟩, p9⟩, p10⟩ := h0
  exact ⟨FiniteReal.forall_real_of_all_abs_lt_inf a0 _ _ _ _ _ _ p0, FiniteReal.forall_real_of_all_abs_lt_inf a1 _ _ _ _ _ _ p1,
    FiniteReal.forall_real_of_all_abs_lt_inf a2 _ _ _ _ _ _ p2, FiniteReal.forall_real_of_all_abs_lt_inf a3 _ _ _ _ _ _ p3,
    FiniteReal.forall_real_of_all_abs_lt_inf a4 _ _ _ _ _ _ p4, FiniteReal.forall_real_of_all_abs_lt_inf a5 _ _ _ _ _ _ p5,
    FiniteReal.forall_real_of_all_abs_lt_inf a6 _ _ _ _ _ _ p6, FiniteReal.forall_real_of_all_abs_lt_inf a7 _ _ _ _ _ _ p7,
    FiniteReal.forall_real_of_all_abs_lt_inf a8 _ _ _ _ _ _ p8, FiniteReal.forall_real_of_all_abs_lt_inf a9 _ _ _ _ _ _ p9,
    FiniteReal.forall_real_of_all_abs_lt_inf a10 _ _ _ _ _ _ p10⟩

end Cert.FiniteArgs

end
-- ==== Proof.Algebraic.lean ====
/-
  The algebraic claim. The idealized kernel's run leaves its two result arrays at the kernel's writing of the cell of
  the argument arrays (candK, newK); the reference's run leaves its two results at the reference's writing (candR,
  newR). Under the precondition every entry of every argument is a real number, and there the two writings are equal:
  the reset pre-activation x·(Wr + Ur) = x·Wr + x·Ur because a product distributes over a sum of reals, and each gate
  ½ (tanh (½ p) + 1) = 1 / (1 + exp (−p)) at a real p. The arguments of the two programs agree, so the results do.
-/
import proofs.«152118_j65420941853234_2_alg».proof.Defs
import proofs.«152118_j65420941853234_2_alg».proof.Proof.KernelSpec
import proofs.«152118_j65420941853234_2_alg».proof.Proof.RefSpec
import proofs.«152118_j65420941853234_2_alg».proof.Proof.Finite
import proofs.«152118_j65420941853234_2_alg».proof.Proof.Gen.ReferenceIdeal
import proofs.«152118_j65420941853234_2_alg».proof.Proof.Gen.ReferenceIdeal.Run
import proofs.«152118_j65420941853234_2_alg».proof.Proof.Gen.Pre_finite_inputs

noncomputable section

namespace Cert.KernelIdeal.Val

open Cert.KernelIdeal Cert.KernelIdeal.Gen Cert.KernelIdeal.Fr Cert.GruSpec
open Idealize.ShloMosaic Idealize.ShloMosaic.TcCoe Idealize.SL.Sem

variable (m : (ℓ : Loc nD τ sig) → Buf (Elt Ideal) ℓ) (ρ : Dev nD → PrngReg)

/-- The idealized kernel's run with both results named and the arguments unchanged. -/
theorem run_named : θ_run defs (onTc (τ := τ) (main (F := Ideal))) ⟨m, fun _ => 0, ρ⟩ (fun r => ∀ c : Dev nD,
      r.2.mem ((c.tc : Thread nD τ).loc main_v13_0) = newOut m c
      ∧ r.2.mem ((c.tc : Thread nD τ).loc main_v13_1) = candOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 8).trans (final8 m c), ((h c).1 9).trans (final9 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩)
    (run_main m ρ)

end Cert.KernelIdeal.Val

namespace Cert.Proof

open Idealize.ShloMosaic Idealize.SL.Sem

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Val.newOut m c, fun c => Cert.KernelIdeal.Val.candOut m c,
    Cert.KernelIdeal.Val.run_named m ρ, ?_⟩
  refine (θ_run Cert.ReferenceIdeal.defs _ _).mono (fun _ h c => ?_) (Cert.ReferenceIdeal.Value.run (F := Ideal) m' ρ')
  obtain ⟨e0, e1, e2, e3, e4, e5, e6, e7, e8, e9, e10⟩ := hagree c
  obtain ⟨r0, r1, r2, r3, r4, r5, r6, r7, -, -, -⟩ := Cert.FiniteArgs.reals_of_finite _ _ _ _ _ _ _ _ _ _ _ (hpre c)
  refine ⟨(h c).1.trans ?_, (h c).2.1.trans ?_, (h c).2.2⟩
  · refine (Cert.ReferenceIdeal.Read.val_main_v41_eq (F := Ideal) _ _ _ _ _ _ _ _ _ _ _).trans ?_
    show _ = Cert.KernelIdeal.Val.newOut m c
    rw [e0, e1, e2, e3, e4, e5, e6, e7, e8, e9, e10, Cert.ReferenceIdeal.RefVal.new_fun, Cert.KernelIdeal.Val.newOut_fun,
      Cert.GruSpec.newK_eq _ _ _ _ _ _ _ _ _ _ _ r0 r1 r2 r3 r4 r5 r6 r7]
  · refine (Cert.ReferenceIdeal.Read.val_main_v36_eq (F := Ideal) _ _ _ _ _ _ _ _).trans ?_
    show _ = Cert.KernelIdeal.Val.candOut m c
    rw [e0, e1, e5, e6, e7, e8, e9, e10, Cert.ReferenceIdeal.RefVal.cand_fun, Cert.KernelIdeal.Val.candOut_fun,
      Cert.GruSpec.candK_eq _ _ _ _ _ _ _ _ r0 r5 r6 r7]

end Cert.Proof

end
-- ==== Proof.lean ====
/-
  The certificate of one step of a gated recurrent cell over a batch of 262144 rows of width 128, computed by a
  pipelined kernel (64 blocks of 4096 rows) against its plain reference.
  The three frame claims come from the runs of the programs: the two kernel programs through the pipeline library's
  frame theorem with the body's two stores as per-point data, the reference through its run as a straight line of host
  operations. The idealization rewrote nothing, so there is nothing to preserve. The algebraic claim: both programs
  end with the same two arrays, because on real entries x·(Wr + Ur) = x·Wr + x·Ur and ½ (tanh (½ p) + 1) = 1 / (1 + exp (−p)).
-/
import proofs.«152118_j65420941853234_2_alg».proof.Defs
import proofs.«152118_j65420941853234_2_alg».proof.Proof.BitsRun
import proofs.«152118_j65420941853234_2_alg».proof.Proof.IdealRun
import proofs.«152118_j65420941853234_2_alg».proof.Proof.Algebraic
import proofs.«152118_j65420941853234_2_alg».proof.Proof.Gen.Kernel
import proofs.«152118_j65420941853234_2_alg».proof.Proof.Gen.KernelIdeal
import proofs.«152118_j65420941853234_2_alg».proof.Proof.Gen.ReferenceIdeal
import proofs.«152118_j65420941853234_2_alg».proof.Proof.Gen.ReferenceIdeal.Run
import proofs.«152118_j65420941853234_2_alg».proof.Proof.Gen.ReferenceIdeal.Read
import proofs.«152118_j65420941853234_2_alg».proof.Proof.Gen.Pre_finite_inputs
import Idealize.ShloMosaic.Adequacy
import Idealize.ShloMosaic.Init

noncomputable section

namespace Cert.Proof

open Idealize.ShloMosaic Idealize.SL.Sem

/-- The word-level kernel program runs to the end, faults nowhere and leaves its arguments as launched. -/
theorem frame_k : Cert.frame_Kernel (hKernel := Cert.Kernel.Gen.facts) (hPre_finite_inputs := Cert.Pre_finite_inputs.Gen.facts) :=
  fun m ρ _ => Cert.Kernel.Fr.frame m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Fr.frame m ρ

/-- So does the reference: its run, with the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
